-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x64x32x32 : Shape := ⟨4, ![256, 64, 32, 32]⟩
abbrev S576x64 : Shape := ⟨2, ![576, 64]⟩
abbrev S_ : Shape := ⟨0, ![]⟩

class Facts : Prop where
  bcast_S_S256x64x32x32 : S_.BroadcastsInDim S256x64x32x32 (![] : Fin 0 → Fin S256x64x32x32.rank)
  reducesTo_S256x64x32x32_S_d0_1_2_3 : S256x64x32x32.ReducesTo [0, 1, 2, 3] S_
  h_S_ : 0 < S_.numel
  bcast_S_S576x64 : S_.BroadcastsInDim S576x64 (![] : Fin 0 → Fin S576x64.rank)
  reducesTo_S576x64_S_d0_1 : S576x64.ReducesTo [0, 1] S_

variable [Facts]

def fn {F : FTy → Type} [FloatOps F] (main_arg0 : FVec F S256x64x32x32 .f32) (main_arg1 : FVec F S576x64 .f32) : IVec S_ 1 :=
  let main_v0 : FVec F S256x64x32x32 .f32 := Host.absf main_arg0
  let main_cst : FVec F S_ .f32 := constant S_ .f32 0x7F800000#32
  let main_v1 : FVec F S256x64x32x32 .f32 := broadcastInDim S256x64x32x32 ![] bcast_S_S256x64x32x32 main_cst
  let main_v2 : IVec S256x64x32x32 1 := cmpf .olt main_v0 main_v1
  let main_c : IVec S_ 1 := constantI S_ 1 1#1
  let main_v3 : IVec S_ 1 := (fun x v => Host.reduce IntOp.andi x v reducesTo_S256x64x32x32_S_d0_1_2_3 h_S_) main_v2 main_c
  let main_v4 : FVec F S576x64 .f32 := Host.absf main_arg1
  let main_cst_0 : FVec F S_ .f32 := constant S_ .f32 0x7F800000#32
  let main_v5 : FVec F S576x64 .f32 := broadcastInDim S576x64 ![] bcast_S_S576x64 main_cst_0
  let main_v6 : IVec S576x64 1 := cmpf .olt main_v4 main_v5
  let main_c_1 : IVec S_ 1 := constantI S_ 1 1#1
  let main_v7 : IVec S_ 1 := (fun x v => Host.reduce IntOp.andi x v reducesTo_S576x64_S_d0_1 h_S_) main_v6 main_c_1
  let main_v8 : IVec S_ 1 := andi main_v3 main_v7
  main_v8
-- ==== Kernel.lean ====
abbrev S256x64x32x32 : Shape := ⟨4, ![256, 64, 32, 32]⟩
abbrev S576x64 : Shape := ⟨2, ![576, 64]⟩
abbrev S_ : Shape := ⟨0, ![]⟩
abbrev S256x64x1x32 : Shape := ⟨4, ![256, 64, 1, 32]⟩
abbrev S256x64x33x32 : Shape := ⟨4, ![256, 64, 33, 32]⟩
abbrev S256x64x34x32 : Shape := ⟨4, ![256, 64, 34, 32]⟩
abbrev S256x64x34x1 : Shape := ⟨4, ![256, 64, 34, 1]⟩
abbrev S256x64x34x33 : Shape := ⟨4, ![256, 64, 34, 33]⟩
abbrev S256x64x34x34 : Shape := ⟨4, ![256, 64, 34, 34]⟩
abbrev S256x64x1024 : Shape := ⟨3, ![256, 64, 1024]⟩
abbrev S4x64x34x34 : Shape := ⟨4, ![4, 64, 34, 34]⟩
abbrev S4x64x1024 : Shape := ⟨3, ![4, 64, 1024]⟩
abbrev S1x64x34x34 : Shape := ⟨4, ![1, 64, 34, 34]⟩
abbrev S64x34x34 : Shape := ⟨3, ![64, 34, 34]⟩
abbrev S64x32x32 : Shape := ⟨3, ![64, 32, 32]⟩
abbrev S64x1x32x32 : Shape := ⟨4, ![64, 1, 32, 32]⟩
abbrev S64x9x32x32 : Shape := ⟨4, ![64, 9, 32, 32]⟩
abbrev S576x32x32 : Shape := ⟨3, ![576, 32, 32]⟩
abbrev S576x1024 : Shape := ⟨2, ![576, 1024]⟩
abbrev S1024 : Shape := ⟨1, ![1024]⟩
abbrev S1x1024 : Shape := ⟨2, ![1, 1024]⟩
abbrev S64x1024 : Shape := ⟨2, ![64, 1024]⟩
abbrev S1x64x1024 : Shape := ⟨3, ![1, 64, 1024]⟩

abbrev nBuf : Space → Nat
  | .hbm => 21
  | .vmem => 5
  | .smem => 0
  | _ => 0

abbrev bufTy : (tb : Table) → Fin (tcTables nBuf tb) → BufTy
  | .hbm, ⟨0, _⟩ => ⟨S256x64x32x32, .f32⟩
  | .hbm, ⟨1, _⟩ => ⟨S576x64, .f32⟩
  | .hbm, ⟨2, _⟩ => ⟨S_, .i32⟩
  | .hbm, ⟨3, _⟩ => ⟨S256x64x1x32, .f32⟩
  | .hbm, ⟨4, _⟩ => ⟨S256x64x1x32, .f32⟩
  | .hbm, ⟨5, _⟩ => ⟨S256x64x1x32, .f32⟩
  | .hbm, ⟨6, _⟩ => ⟨S256x64x33x32, .f32⟩
  | .hbm, ⟨7, _⟩ => ⟨S256x64x1x32, .f32⟩
  | .hbm, ⟨8, _⟩ => ⟨S256x64x1x32, .f32⟩
  | .hbm, ⟨9, _⟩ => ⟨S256x64x1x32, .f32⟩
  | .hbm, ⟨10, _⟩ => ⟨S256x64x34x32, .f32⟩
  | .hbm, ⟨11, _⟩ => ⟨S256x64x34x1, .f32⟩
  | .hbm, ⟨12, _⟩ => ⟨S256x64x34x1, .f32⟩
  | .hbm, ⟨13, _⟩ => ⟨S256x64x34x1, .f32⟩
  | .hbm, ⟨14, _⟩ => ⟨S256x64x34x33, .f32⟩
  | .hbm, ⟨15, _⟩ => ⟨S256x64x34x1, .f32⟩
  | .hbm, ⟨16, _⟩ => ⟨S256x64x34x1, .f32⟩
  | .hbm, ⟨17, _⟩ => ⟨S256x64x34x1, .f32⟩
  | .hbm, ⟨18, _⟩ => ⟨S256x64x34x34, .f32⟩
  | .hbm, ⟨19, _⟩ => ⟨S256x64x1024, .f32⟩
  | .hbm, ⟨20, _⟩ => ⟨S256x64x32x32, .f32⟩
  | .local _ .vmem, ⟨0, _⟩ => ⟨S4x64x34x34, .f32⟩
  | .local _ .vmem, ⟨1, _⟩ => ⟨S4x64x34x34, .f32⟩
  | .local _ .vmem, ⟨2, _⟩ => ⟨S576x64, .f32⟩
  | .local _ .vmem, ⟨3, _⟩ => ⟨S4x64x1024, .f32⟩
  | .local _ .vmem, ⟨4, _⟩ => ⟨S4x64x1024, .f32⟩
  | _, _ => ⟨S256x64x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_call0_v5 : Ref sig .tc := ⟨.hbm, 8, rfl⟩
abbrev main_call0_v6 : Ref sig .tc := ⟨.hbm, 9, rfl⟩
abbrev main_call0_v7 : Ref sig .tc := ⟨.hbm, 10, rfl⟩
abbrev main_call0_v8 : Ref sig .tc := ⟨.hbm, 11, rfl⟩
abbrev main_call0_v9 : Ref sig .tc := ⟨.hbm, 12, rfl⟩
abbrev main_call0_v10 : Ref sig .tc := ⟨.hbm, 13, rfl⟩
abbrev main_call0_v11 : Ref sig .tc := ⟨.hbm, 14, rfl⟩
abbrev main_call0_v12 : Ref sig .tc := ⟨.hbm, 15, rfl⟩
abbrev main_call0_v13 : Ref sig .tc := ⟨.hbm, 16, rfl⟩
abbrev main_call0_v14 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x64x34x34 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S576x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4x64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S256x64x32x32_S256x64x1x32_0_0_0_0 : S256x64x32x32.Slices ![0, 0, 0, 0] S256x64x1x32
  slices_S256x64x32x32_S256x64x1x32_0_0_1_0 : S256x64x32x32.Slices ![0, 0, 1, 0] S256x64x1x32
  concatenates_S256x64x1x32_S256x64x32x32_S256x64x33x32_d2 : Shape.Concatenates [S256x64x1x32, S256x64x32x32] S256x64x33x32 2
  slices_S256x64x33x32_S256x64x1x32_0_0_32_0 : S256x64x33x32.Slices ![0, 0, 32, 0] S256x64x1x32
  slices_S256x64x33x32_S256x64x1x32_0_0_31_0 : S256x64x33x32.Slices ![0, 0, 31, 0] S256x64x1x32
  concatenates_S256x64x33x32_S256x64x1x32_S256x64x34x32_d2 : Shape.Concatenates [S256x64x33x32, S256x64x1x32] S256x64x34x32 2
  slices_S256x64x34x32_S256x64x34x1_0_0_0_0 : S256x64x34x32.Slices ![0, 0, 0, 0] S256x64x34x1
  slices_S256x64x34x32_S256x64x34x1_0_0_0_1 : S256x64x34x32.Slices ![0, 0, 0, 1] S256x64x34x1
  concatenates_S256x64x34x1_S256x64x34x32_S256x64x34x33_d3 : Shape.Concatenates [S256x64x34x1, S256x64x34x32] S256x64x34x33 3
  slices_S256x64x34x33_S256x64x34x1_0_0_0_32 : S256x64x34x33.Slices ![0, 0, 0, 32] S256x64x34x1
  slices_S256x64x34x33_S256x64x34x1_0_0_0_31 : S256x64x34x33.Slices ![0, 0, 0, 31] S256x64x34x1
  concatenates_S256x64x34x33_S256x64x34x1_S256x64x34x34_d3 : Shape.Concatenates [S256x64x34x33, S256x64x34x1] S256x64x34x34 3
  inb_S576x64_S576x64_0_0 : ∀ a, (![0, 0] : Fin 2 → Nat) a + S576x64.size a ≤ S576x64.size a
  h_S576x64 : 0 < S576x64.numel
  bitsLt_bf16_f32 : FTy.bits .bf16 < FTy.bits .f32
  inb_S4x64x34x34_S1x64x34x34_0_0_0_0 : ∀ a, (![0, 0, 0, 0] : Fin 4 → Nat) a + S1x64x34x34.size a ≤ S4x64x34x34.size a
  h_S1x64x34x34 : 0 < S1x64x34x34.numel
  shapeCasts_S1x64x34x34_S64x34x34 : S1x64x34x34.ShapeCasts S64x34x34
  slices_S64x34x34_o0_0_0_S64x32x32 : S64x34x34.Slices ![0, 0, 0] S64x32x32
  slices_S64x34x34_o0_0_1_S64x32x32 : S64x34x34.Slices ![0, 0, 1] S64x32x32
  slices_S64x34x34_o0_0_2_S64x32x32 : S64x34x34.Slices ![0, 0, 2] S64x32x32
  slices_S64x34x34_o0_1_0_S64x32x32 : S64x34x34.Slices ![0, 1, 0] S64x32x32
  slices_S64x34x34_o0_1_1_S64x32x32 : S64x34x34.Slices ![0, 1, 1] S64x32x32
  slices_S64x34x34_o0_1_2_S64x32x32 : S64x34x34.Slices ![0, 1, 2] S64x32x32
  slices_S64x34x34_o0_2_0_S64x32x32 : S64x34x34.Slices ![0, 2, 0] S64x32x32
  slices_S64x34x34_o0_2_1_S64x32x32 : S64x34x34.Slices ![0, 2, 1] S64x32x32
  slices_S64x34x34_o0_2_2_S64x32x32 : S64x34x34.Slices ![0, 2, 2] S64x32x32
  shapeCasts_S64x32x32_S64x1x32x32 : S64x32x32.ShapeCasts S64x1x32x32
  concatenates_S64x1x32x32_S64x1x32x32_S64x1x32x32_S64x1x32x32_S64x1x32x32_S64x1x32x32_S64x1x32x32_S64x1x32x32_S64x1x32x32_S64x9x32x32_d1 : Shape.Concatenates [S64x1x32x32, S64x1x32x32, S64x1x32x32, S64x1x32x32, S64x1x32x32, S64x1x32x32, S64x1x32x32, S64x1x32x32, S64x1x32x32] S64x9x32x32 1
  shapeCasts_S64x9x32x32_S576x32x32 : S64x9x32x32.ShapeCasts S576x32x32
  shapeCasts_S576x32x32_S576x1024 : S576x32x32.ShapeCasts S576x1024
  reduces_S576x1024_S1024 : S576x1024.Reduces [0] S1024
  shapeCasts_S1024_S1x1024 : S1024.ShapeCasts S1x1024
  broadcasts_S1x1024_S576x1024 : S1x1024.Broadcasts S576x1024
  inb_S4x64x1024_S1x64x1024_0_0_0 : ∀ a, (![0, 0, 0] : Fin 3 → Nat) a + S1x64x1024.size a ≤ S4x64x1024.size a
  h_S1x64x1024 : 0 < S1x64x1024.numel
  shapeCasts_S1x64x1024_S64x1024 : S1x64x1024.ShapeCasts S64x1024
  shapeCasts_S64x1024_S1x64x1024 : S64x1024.ShapeCasts S1x64x1024
  inb_S4x64x34x34_S1x64x34x34_1_0_0_0 : ∀ a, (![1, 0, 0, 0] : Fin 4 → Nat) a + S1x64x34x34.size a ≤ S4x64x34x34.size a
  inb_S4x64x1024_S1x64x1024_1_0_0 : ∀ a, (![1, 0, 0] : Fin 3 → Nat) a + S1x64x1024.size a ≤ S4x64x1024.size a
  inb_S4x64x34x34_S1x64x34x34_2_0_0_0 : ∀ a, (![2, 0, 0, 0] : Fin 4 → Nat) a + S1x64x34x34.size a ≤ S4x64x34x34.size a
  inb_S4x64x1024_S1x64x1024_2_0_0 : ∀ a, (![2, 0, 0] : Fin 3 → Nat) a + S1x64x1024.size a ≤ S4x64x1024.size a
  inb_S4x64x34x34_S1x64x34x34_3_0_0_0 : ∀ a, (![3, 0, 0, 0] : Fin 4 → Nat) a + S1x64x34x34.size a ≤ S4x64x34x34.size a
  inb_S4x64x1024_S1x64x1024_3_0_0 : ∀ a, (![3, 0, 0] : Fin 3 → Nat) a + S1x64x1024.size a ≤ S4x64x1024.size a
  shapeCasts_S256x64x1024_S256x64x32x32 : S256x64x1024.ShapeCasts S256x64x32x32
  dot_S576x64_S576x1024_S64x1024_0_0_1_1_n_n_wf : DotDims.WF S576x64 S576x1024 S64x1024 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x64x34x34.size a ≤ S256x64x34x34.size a
  hwx0_0 : ∀ i : grid0.Coords, EltTy.bits .f32 = 32 ∨ (Rect.block (s := S256x64x34x34) S4x64x34x34.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S576x64.size a ≤ S576x64.size a
  hwx0_1 : ∀ i : grid0.Coords, EltTy.bits .f32 = 32 ∨ (Rect.block (s := S576x64) S576x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x64x1024.size a ≤ S256x64x1024.size a
  hwx0_2 : ∀ i : grid0.Coords, EltTy.bits .f32 = 32 ∨ (Rect.block (s := S256x64x1024) S4x64x1024.size (cc0_transform_2 i) (hinb0_2 i)).WholeWords (EltTy.packing .f32)

variable [Facts₀]

def dot_S576x64_S576x1024_S64x1024_0_0_1_1_n_n : DotDims S576x64 S576x1024 S64x1024 where
  lhsContracting := [0]
  rhsContracting := [0]
  lhsNonContracting := [1]
  rhsNonContracting := [1]
  lhsBatch := []
  rhsBatch := []
  wf := dot_S576x64_S576x1024_S64x1024_0_0_1_1_n_n_wf

abbrev win0_0 : Pipeline.Window sig grid0 :=
  Pipeline.Window.ofSpec (Memref.whole main_v0) S4x64x34x34.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S576x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S4x64x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S256x64x32x32 : Shape := ⟨4, ![256, 64, 32, 32]⟩
abbrev S576x64 : Shape := ⟨2, ![576, 64]⟩
abbrev S_ : Shape := ⟨0, ![]⟩
abbrev S256x64x1x32 : Shape := ⟨4, ![256, 64, 1, 32]⟩
abbrev S256x64x33x32 : Shape := ⟨4, ![256, 64, 33, 32]⟩
abbrev S256x64x34x32 : Shape := ⟨4, ![256, 64, 34, 32]⟩
abbrev S256x64x34x1 : Shape := ⟨4, ![256, 64, 34, 1]⟩
abbrev S256x64x34x33 : Shape := ⟨4, ![256, 64, 34, 33]⟩
abbrev S256x64x34x34 : Shape := ⟨4, ![256, 64, 34, 34]⟩
abbrev S256x64x1x32x32 : Shape := ⟨5, ![256, 64, 1, 32, 32]⟩
abbrev S256x64x9x32x32 : Shape := ⟨5, ![256, 64, 9, 32, 32]⟩
abbrev S256x576x1024 : Shape := ⟨3, ![256, 576, 1024]⟩
abbrev S256x1024x576 : Shape := ⟨3, ![256, 1024, 576]⟩
abbrev S256x1024 : Shape := ⟨2, ![256, 1024]⟩
abbrev S256x1024x1 : Shape := ⟨3, ![256, 1024, 1]⟩
abbrev S256x1024x64 : Shape := ⟨3, ![256, 1024, 64]⟩
abbrev S256x64x1024 : Shape := ⟨3, ![256, 64, 1024]⟩

abbrev nBuf : Space → Nat
  | .hbm => 78
  | .vmem => 0
  | .smem => 0
  | _ => 0

abbrev bufTy : (tb : Table) → Fin (tcTables nBuf tb) → BufTy
  | .hbm, ⟨0, _⟩ => ⟨S256x64x32x32, .f32⟩
  | .hbm, ⟨1, _⟩ => ⟨S576x64, .f32⟩
  | .hbm, ⟨2, _⟩ => ⟨S_, .i32⟩
  | .hbm, ⟨3, _⟩ => ⟨S256x64x1x32, .f32⟩
  | .hbm, ⟨4, _⟩ => ⟨S256x64x1x32, .f32⟩
  | .hbm, ⟨5, _⟩ => ⟨S256x64x1x32, .f32⟩
  | .hbm, ⟨6, _⟩ => ⟨S256x64x33x32, .f32⟩
  | .hbm, ⟨7, _⟩ => ⟨S256x64x1x32, .f32⟩
  | .hbm, ⟨8, _⟩ => ⟨S256x64x1x32, .f32⟩
  | .hbm, ⟨9, _⟩ => ⟨S256x64x1x32, .f32⟩
  | .hbm, ⟨10, _⟩ => ⟨S256x64x34x32, .f32⟩
  | .hbm, ⟨11, _⟩ => ⟨S256x64x34x1, .f32⟩
  | .hbm, ⟨12, _⟩ => ⟨S256x64x34x1, .f32⟩
  | .hbm, ⟨13, _⟩ => ⟨S256x64x34x1, .f32⟩
  | .hbm, ⟨14, _⟩ => ⟨S256x64x34x33, .f32⟩
  | .hbm, ⟨15, _⟩ => ⟨S256x64x34x1, .f32⟩
  | .hbm, ⟨16, _⟩ => ⟨S256x64x34x1, .f32⟩
  | .hbm, ⟨17, _⟩ => ⟨S256x64x34x1, .f32⟩
  | .hbm, ⟨18, _⟩ => ⟨S256x64x34x34, .f32⟩
  | .hbm, ⟨19, _⟩ => ⟨S256x64x32x32, .f32⟩
  | .hbm, ⟨20, _⟩ => ⟨S256x64x32x32, .f32⟩
  | .hbm, ⟨21, _⟩ => ⟨S256x64x32x32, .f32⟩
  | .hbm, ⟨22, _⟩ => ⟨S256x64x32x32, .f32⟩
  | .hbm, ⟨23, _⟩ => ⟨S256x64x32x32, .f32⟩
  | .hbm, ⟨24, _⟩ => ⟨S256x64x32x32, .f32⟩
  | .hbm, ⟨25, _⟩ => ⟨S256x64x32x32, .f32⟩
  | .hbm, ⟨26, _⟩ => ⟨S256x64x32x32, .f32⟩
  | .hbm, ⟨27, _⟩ => ⟨S256x64x32x32, .f32⟩
  | .hbm, ⟨28, _⟩ => ⟨S256x64x1x32x32, .f32⟩
  | .hbm, ⟨29, _⟩ => ⟨S256x64x1x32x32, .f32⟩
  | .hbm, ⟨30, _⟩ => ⟨S256x64x1x32x32, .f32⟩
  | .hbm, ⟨31, _⟩ => ⟨S256x64x1x32x32, .f32⟩
  | .hbm, ⟨32, _⟩ => ⟨S256x64x1x32x32, .f32⟩
  | .hbm, ⟨33, _⟩ => ⟨S256x64x1x32x32, .f32⟩
  | .hbm, ⟨34, _⟩ => ⟨S256x64x1x32x32, .f32⟩
  | .hbm, ⟨35, _⟩ => ⟨S256x64x1x32x32, .f32⟩
  | .hbm, ⟨36, _⟩ => ⟨S256x64x1x32x32, .f32⟩
  | .hbm, ⟨37, _⟩ => ⟨S256x64x9x32x32, .f32⟩
  | .hbm, ⟨38, _⟩ => ⟨S256x576x1024, .f32⟩
  | .hbm, ⟨39, _⟩ => ⟨S256x1024x576, .f32⟩
  | .hbm, ⟨40, _⟩ => ⟨S_, .f32⟩
  | .hbm, ⟨41, _⟩ => ⟨S256x1024, .f32⟩
  | .hbm, ⟨42, _⟩ => ⟨S256x1024x1, .f32⟩
  | .hbm, ⟨43, _⟩ => ⟨S_, .f32⟩
  | .hbm, ⟨44, _⟩ => ⟨S256x1024x1, .f32⟩
  | .hbm, ⟨45, _⟩ => ⟨S256x1024x1, .f32⟩
  | .hbm, ⟨46, _⟩ => ⟨S_, .i32⟩
  | .hbm, ⟨47, _⟩ => ⟨S_, .f32⟩
  | .hbm, ⟨48, _⟩ => ⟨S256x1024, .f32⟩
  | .hbm, ⟨49, _⟩ => ⟨S256x1024x1, .f32⟩
  | .hbm, ⟨50, _⟩ => ⟨S_, .f32⟩
  | .hbm, ⟨51, _⟩ => ⟨S256x1024x1, .f32⟩
  | .hbm, ⟨52, _⟩ => ⟨S256x1024x1, .f32⟩
  | .hbm, ⟨53, _⟩ => ⟨S256x1024x576, .f32⟩
  | .hbm, ⟨54, _⟩ => ⟨S256x1024x576, .f32⟩
  | .hbm, ⟨55, _⟩ => ⟨S256x1024x576, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S256x1024, .f32⟩
  | .hbm, ⟨61, _⟩ => ⟨S256x1024x1, .f32⟩
  | .hbm, ⟨62, _⟩ => ⟨S256x1024x1, .f32⟩
  | .hbm, ⟨63, _⟩ => ⟨S256x1024x1, .f32⟩
  | .hbm, ⟨64, _⟩ => ⟨S_, .f32⟩
  | .hbm, ⟨65, _⟩ => ⟨S_, .i1⟩
  | .hbm, ⟨66, _⟩ => ⟨S_, .f32⟩
  | .hbm, ⟨67, _⟩ => ⟨S_, .f32⟩
  | .hbm, ⟨68, _⟩ => ⟨S256x1024x1, .f32⟩
  | .hbm, ⟨69, _⟩ => ⟨S256x1024x1, .f32⟩
  | .hbm, ⟨70, _⟩ => ⟨S256x1024x1, .f32⟩
  | .hbm, ⟨71, _⟩ => ⟨S256x1024x576, .f32⟩
  | .hbm, ⟨72, _⟩ => ⟨S256x1024x576, .f32⟩
  | .hbm, ⟨73, _⟩ => ⟨S256x1024x576, .f32⟩
  | .hbm, ⟨74, _⟩ => ⟨S256x1024x576, .f32⟩
  | .hbm, ⟨75, _⟩ => ⟨S256x1024x64, .f32⟩
  | .hbm, ⟨76, _⟩ => ⟨S256x64x1024, .f32⟩
  | .hbm, ⟨77, _⟩ => ⟨S256x64x32x32, .f32⟩
  | _, _ => ⟨S256x64x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_call0_v5 : Ref sig .tc := ⟨.hbm, 8, rfl⟩
abbrev main_call0_v6 : Ref sig .tc := ⟨.hbm, 9, rfl⟩
abbrev main_call0_v7 : Ref sig .tc := ⟨.hbm, 10, rfl⟩
abbrev main_call0_v8 : Ref sig .tc := ⟨.hbm, 11, rfl⟩
abbrev main_call0_v9 : Ref sig .tc := ⟨.hbm, 12, rfl⟩
abbrev main_call0_v10 : Ref sig .tc := ⟨.hbm, 13, rfl⟩
abbrev main_call0_v11 : Ref sig .tc := ⟨.hbm, 14, rfl⟩
abbrev main_call0_v12 : Ref sig .tc := ⟨.hbm, 15, rfl⟩
abbrev main_call0_v13 : Ref sig .tc := ⟨.hbm, 16, rfl⟩
abbrev main_call0_v14 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst : Ref sig .tc := ⟨.hbm, 40, rfl⟩
abbrev main_v22 : Ref sig .tc := ⟨.hbm, 41, rfl⟩
abbrev main_v23 : Ref sig .tc := ⟨.hbm, 42, rfl⟩
abbrev main_cst_0 : Ref sig .tc := ⟨.hbm, 43, rfl⟩
abbrev main_v24 : Ref sig .tc := ⟨.hbm, 44, rfl⟩
abbrev main_v25 : Ref sig .tc := ⟨.hbm, 45, rfl⟩
abbrev main_c_1 : Ref sig .tc := ⟨.hbm, 46, rfl⟩
abbrev main_call1_call0_cst : Ref sig .tc := ⟨.hbm, 47, rfl⟩
abbrev main_call1_call0_v0 : Ref sig .tc := ⟨.hbm, 48, rfl⟩
abbrev main_call1_call0_v1 : Ref sig .tc := ⟨.hbm, 49, rfl⟩
abbrev main_call1_call0_cst_0 : Ref sig .tc := ⟨.hbm, 50, rfl⟩
abbrev main_call1_call0_v2 : Ref sig .tc := ⟨.hbm, 51, rfl⟩
abbrev main_call1_call0_v3 : Ref sig .tc := ⟨.hbm, 52, rfl⟩
abbrev main_call1_call0_v4 : Ref sig .tc := ⟨.hbm, 53, rfl⟩
abbrev main_call1_call0_v5 : Ref sig .tc := ⟨.hbm, 54, rfl⟩
abbrev main_call1_call0_v6 : Ref sig .tc := ⟨.hbm, 55, rfl⟩
abbrev main_call1_call0_v7 : Ref sig .tc := ⟨.hbm, 56, rfl⟩
abbrev main_call1_call0_cst_1 : Ref sig .tc := ⟨.hbm, 57, rfl⟩
abbrev main_call1_call0_v8 : Ref sig .tc := ⟨.hbm, 58, rfl⟩
abbrev main_call1_call0_cst_2 : Ref sig .tc := ⟨.hbm, 59, rfl⟩
abbrev main_call1_call0_v9 : Ref sig .tc := ⟨.hbm, 60, rfl⟩
abbrev main_call1_call0_v10 : Ref sig .tc := ⟨.hbm, 61, rfl⟩
abbrev main_call1_call0_v11 : Ref sig .tc := ⟨.hbm, 62, rfl⟩
abbrev main_call1_call0_v12 : Ref sig .tc := ⟨.hbm, 63, rfl⟩
abbrev main_call1_call0_cst_3 : Ref sig .tc := ⟨.hbm, 64, rfl⟩
abbrev main_call1_call0_v13 : Ref sig .tc := ⟨.hbm, 65, rfl⟩
abbrev main_call1_call0_cst_4 : Ref sig .tc := ⟨.hbm, 66, rfl⟩
abbrev main_call1_call0_call0_v0 : Ref sig .tc := ⟨.hbm, 67, rfl⟩
abbrev main_call1_call0_call0_v1 : Ref sig .tc := ⟨.hbm, 68, rfl⟩
abbrev main_call1_v0 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩

abbrev nD : Nat := 1
abbrev τ : Topo := Topo.v7x

variable {F : FTy → Type} [FloatOps F]

class Facts₀ : Prop where
  slices_S256x64x32x32_S256x64x1x32_0_0_0_0 : S256x64x32x32.Slices ![0, 0, 0, 0] S256x64x1x32
  slices_S256x64x32x32_S256x64x1x32_0_0_1_0 : S256x64x32x32.Slices ![0, 0, 1, 0] S256x64x1x32
  concatenates_S256x64x1x32_S256x64x32x32_S256x64x33x32_d2 : Shape.Concatenates [S256x64x1x32, S256x64x32x32] S256x64x33x32 2
  slices_S256x64x33x32_S256x64x1x32_0_0_32_0 : S256x64x33x32.Slices ![0, 0, 32, 0] S256x64x1x32
  slices_S256x64x33x32_S256x64x1x32_0_0_31_0 : S256x64x33x32.Slices ![0, 0, 31, 0] S256x64x1x32
  concatenates_S256x64x33x32_S256x64x1x32_S256x64x34x32_d2 : Shape.Concatenates [S256x64x33x32, S256x64x1x32] S256x64x34x32 2
  slices_S256x64x34x32_S256x64x34x1_0_0_0_0 : S256x64x34x32.Slices ![0, 0, 0, 0] S256x64x34x1
  slices_S256x64x34x32_S256x64x34x1_0_0_0_1 : S256x64x34x32.Slices ![0, 0, 0, 1] S256x64x34x1
  concatenates_S256x64x34x1_S256x64x34x32_S256x64x34x33_d3 : Shape.Concatenates [S256x64x34x1, S256x64x34x32] S256x64x34x33 3
  slices_S256x64x34x33_S256x64x34x1_0_0_0_32 : S256x64x34x33.Slices ![0, 0, 0, 32] S256x64x34x1
  slices_S256x64x34x33_S256x64x34x1_0_0_0_31 : S256x64x34x33.Slices ![0, 0, 0, 31] S256x64x34x1
  concatenates_S256x64x34x33_S256x64x34x1_S256x64x34x34_d3 : Shape.Concatenates [S256x64x34x33, S256x64x34x1] S256x64x34x34 3
  slices_S256x64x34x34_S256x64x32x32_0_0_0_0 : S256x64x34x34.Slices ![0, 0, 0, 0] S256x64x32x32
  slices_S256x64x34x34_S256x64x32x32_0_0_0_1 : S256x64x34x34.Slices ![0, 0, 0, 1] S256x64x32x32
  slices_S256x64x34x34_S256x64x32x32_0_0_0_2 : S256x64x34x34.Slices ![0, 0, 0, 2] S256x64x32x32
  slices_S256x64x34x34_S256x64x32x32_0_0_1_0 : S256x64x34x34.Slices ![0, 0, 1, 0] S256x64x32x32
  slices_S256x64x34x34_S256x64x32x32_0_0_1_1 : S256x64x34x34.Slices ![0, 0, 1, 1] S256x64x32x32
  slices_S256x64x34x34_S256x64x32x32_0_0_1_2 : S256x64x34x34.Slices ![0, 0, 1, 2] S256x64x32x32
  slices_S256x64x34x34_S256x64x32x32_0_0_2_0 : S256x64x34x34.Slices ![0, 0, 2, 0] S256x64x32x32
  slices_S256x64x34x34_S256x64x32x32_0_0_2_1 : S256x64x34x34.Slices ![0, 0, 2, 1] S256x64x32x32
  slices_S256x64x34x34_S256x64x32x32_0_0_2_2 : S256x64x34x34.Slices ![0, 0, 2, 2] S256x64x32x32
  bcast_S256x64x32x32_S256x64x1x32x32_0_1_3_4 : S256x64x32x32.BroadcastsInDim S256x64x1x32x32 (![0, 1, 3, 4] : Fin 4 → Fin S256x64x1x32x32.rank)
  concatenates_S256x64x1x32x32_S256x64x1x32x32_S256x64x1x32x32_S256x64x1x32x32_S256x64x1x32x32_S256x64x1x32x32_S256x64x1x32x32_S256x64x1x32x32_S256x64x1x32x32_S256x64x9x32x32_d2 : Shape.Concatenates [S256x64x1x32x32, S256x64x1x32x32, S256x64x1x32x32, S256x64x1x32x32, S256x64x1x32x32, S256x64x1x32x32, S256x64x1x32x32, S256x64x1x32x32, S256x64x1x32x32] S256x64x9x32x32 2
  shapeCasts_S256x64x9x32x32_S256x576x1024 : S256x64x9x32x32.ShapeCasts S256x576x1024
  transposes_S256x576x1024_S256x1024x576_0_2_1 : S256x576x1024.Transposes [0, 2, 1] S256x1024x576
  reducesTo_S256x1024x576_S256x1024_d2 : S256x1024x576.ReducesTo [2] S256x1024
  h_S_ : 0 < S_.numel
  bcast_S256x1024_S256x1024x1_0_1 : S256x1024.BroadcastsInDim S256x1024x1 (![0, 1] : Fin 2 → Fin S256x1024x1.rank)
  bcast_S_S256x1024x1 : S_.BroadcastsInDim S256x1024x1 (![] : Fin 0 → Fin S256x1024x1.rank)
  bcast_S256x1024x1_S256x1024x576_0_1_2 : S256x1024x1.BroadcastsInDim S256x1024x576 (![0, 1, 2] : Fin 3 → Fin S256x1024x576.rank)
  transposes_S256x1024x64_S256x64x1024_0_2_1 : S256x1024x64.Transposes [0, 2, 1] S256x64x1024
  shapeCasts_S256x64x1024_S256x64x32x32 : S256x64x1024.ShapeCasts S256x64x32x32
  dot_S256x1024x576_S576x64_S256x1024x64_2_0_01_1_n_n_wf : DotDims.WF S256x1024x576 S576x64 S256x1024x64 [2] [0] [0, 1] [1] [] []

variable [Facts₀]

def dot_S256x1024x576_S576x64_S256x1024x64_2_0_01_1_n_n : DotDims S256x1024x576 S576x64 S256x1024x64 where
  lhsContracting := [2]
  rhsContracting := [0]
  lhsNonContracting := [0, 1]
  rhsNonContracting := [1]
  lhsBatch := []
  rhsBatch := []
  wf := dot_S256x1024x576_S576x64_S256x1024x64_2_0_01_1_n_n_wf

class Facts : Prop extends Facts₀ where

variable [Facts]
-- ==== Proof.PatchNorm.lean ====
/-
  The value both programs compute, as ONE function of the padded image array and the projection matrix.

  A patch column: for image `b` and output position `(h, w)`, the 576 numbers `a_pad[b, c, h + kh, w + kw]`, listed in the
  order `p = 9 c + 3 kh + kw`. Its mean is `μ = (Σ x) / 576`, its centred entries are `x p − μ`, its unbiased deviation is
  `σ = √((Σ (x − μ)²) / 575)`, and the output entry for channel `o` is `Σ_p K[p, o] · ((x p − μ) / σ)`. Every operation is the
  exact one on the extended reals; nothing here uses that an input is finite.
-/
import Idealize.ShloMosaic.PureOps.Ideal
import Idealize.ShloMosaic.Lib.ValueIdx

noncomputable section

namespace Cert.PatchNorm

open Idealize.ShloMosaic Idealize.ShloMosaic.ValueIdx

/-- The f32 word of 576, the number of entries of a patch column. -/
abbrev c576 : EReal := Ideal.ofBits .f32 0x44100000#32
/-- The f32 word of 575, one less (the unbiased estimate's divisor). -/
abbrev c575 : EReal := Ideal.ofBits .f32 0x440FC000#32

/-- The mean of a column. -/
def mean (x : Fin 576 → EReal) : EReal := Ideal.div (∑ q, x q) c576

/-- The unbiased standard deviation of a column. -/
def dev (x : Fin 576 → EReal) : EReal :=
  Ideal.sqrt (Ideal.div (∑ q, (x q - mean x) * (x q - mean x)) c575)

/-- One output entry: the normalized column against one column `k` of the projection matrix. -/
def entry (x k : Fin 576 → EReal) : EReal := ∑ p, k p * Ideal.div (x p - mean x) (dev x)

/-- The channel of the `p`-th entry of a patch column. -/
def pc (p : Fin 576) : Fin 64 := ⟨p.val / 9, by omega⟩
/-- Its row in the padded image, for output row `h`. -/
def pr (h : Fin 32) (p : Fin 576) : Fin 34 := ⟨h.val + p.val % 9 / 3, by omega⟩
/-- Its column in the padded image, for output column `w`. -/
def pw (w : Fin 32) (p : Fin 576) : Fin 34 := ⟨w.val + p.val % 3, by omega⟩

/-- The patch column of image `b` at output position `(h, w)`, read off the padded array. -/
def col (ap : (⟨4, ![256, 64, 34, 34]⟩ : Shape).Idx → EReal) (b : Fin 256) (h w : Fin 32) : Fin 576 → EReal :=
  fun p => ap (ix4 b (pc p) (pr h p) (pw w p))

/-- The same off ONE padded image. -/
def colImg (X : (⟨3, ![64, 34, 34]⟩ : Shape).Idx → EReal) (h w : Fin 32) : Fin 576 → EReal :=
  fun p => X (ix3 (pc p) (pr h p) (pw w p))

/-- The whole result. -/
def out (ap : (⟨4, ![256, 64, 34, 34]⟩ : Shape).Idx → EReal) (K : (⟨2, ![576, 64]⟩ : Shape).Idx → EReal) :
    (⟨4, ![256, 64, 32, 32]⟩ : Shape).Idx → EReal :=
  fun j => entry (col ap (j 0) (j 2) (j 3)) (fun p => K (ix2 p (j 1)))

theorem out_ix4 (ap : (⟨4, ![256, 64, 34, 34]⟩ : Shape).Idx → EReal) (K : (⟨2, ![576, 64]⟩ : Shape).Idx → EReal)
    (b : Fin 256) (o : Fin 64) (h w : Fin 32) :
    out ap K (ix4 b o h w) = entry (col ap b h w) (fun p => K (ix2 p o)) := rfl

end Cert.PatchNorm

end
-- ==== Proof.KernelEntry.lean ====
/-
  One image's result block read at an index: the kernel body's value for one padded image `X` and the (rounded, hence at
  the exact values unchanged) projection matrix is, at channel `o` and position `32 h + w`, the specification's entry of
  the image's patch column at `(h, w)` against column `o` of the matrix.
-/
import proofs.«119388_j32538672234775_2_alg».proof.Proof.Gen.KernelIdeal
import proofs.«119388_j32538672234775_2_alg».proof.Proof.Gen.KernelIdeal.Skeleton
import proofs.«119388_j32538672234775_2_alg».proof.Proof.PatchNorm
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Entry

open Idealize.ShloMosaic Idealize.ShloMosaic.ValueIdx Cert.KernelIdeal

/-! ## The patch matrix

Row `p = 9 c + k` (channel `c`, window tap `k = 3 kh + kw`) and column `l = 32 y + x` of the patch matrix hold the padded
image at `(c, y + kh, x + kw)`. -/

/-- A `[64, 32, 32]` window of the padded image at row offset `a ≤ 2` and column offset `b ≤ 2` lies inside it. -/
theorem slices_tap (a b : ℕ) (ha : a ≤ 2) (hb : b ≤ 2) : S64x34x34.Slices ![0, a, b] S64x32x32 :=
  ⟨rfl, fun ax => by
    match ax with
    | ⟨0, _⟩ => show 0 + 64 ≤ 64; omega
    | ⟨1, _⟩ => show a + 32 ≤ 34; omega
    | ⟨2, _⟩ => show b + 32 ≤ 34; omega⟩

/-- A window of the padded image with a unit axis inserted after the channel, read at `(c, 0, y, x)`: the image at
`(c, a + y, b + x)`. -/
theorem tap_apply (X : FVec Ideal S64x34x34 .f32) (a b : ℕ) (hs : S64x34x34.Slices ![0, a, b] S64x32x32)
    (hc : S64x32x32.ShapeCasts S64x1x32x32) (c : Fin 64) (u : Fin 1) (y x : Fin 32) (r s : Fin 34)
    (hr : r.val = a + y.val) (hs' : s.val = b + x.val) :
    shapeCast S64x1x32x32 (extractStridedSlice S64x32x32 ![0, a, b] X hs) hc (ix4 c u y x) = X (ix3 c r s) := by
  refine (shapeCast_apply _ hc (ix4 c u y x) (ix3 c y x) ?_).trans ?_
  · have hu : u.val = 0 := by omega
    rw [Shape.rowMajor_val_three, Shape.rowMajor_val_four]
    show (c.val * 32 + y.val) * 32 + x.val = ((c.val * 1 + u.val) * 32 + y.val) * 32 + x.val
    omega
  · refine extractStridedSlice_apply _ X hs (ix3 c y x) (ix3 c r s) fun ax => ?_
    match ax with
    | ⟨0, _⟩ => show c.val = 0 + c.val; omega
    | ⟨1, _⟩ => exact hr
    | ⟨2, _⟩ => exact hs'

/-- Tap `n = 3 kh + kw` of the 3×3 window: the image shifted by `(kh, kw)`, as a `[64, 1, 32, 32]` array. -/
def taps (X : FVec Ideal S64x34x34 .f32) (n : Fin 9) : FVec Ideal S64x1x32x32 .f32 :=
  shapeCast S64x1x32x32 (extractStridedSlice S64x32x32 ![0, n.val / 3, n.val % 3] X (slices_tap _ _ (by omega) (by omega)))
    Gen.shapeCasts_S64x32x32_S64x1x32x32

theorem taps_apply (X : FVec Ideal S64x34x34 .f32) (k : Fin 9) (c : Fin 64) (u : Fin 1) (y x : Fin 32) (r s : Fin 34)
    (hr : r.val = y.val + k.val / 3) (hs : s.val = x.val + k.val % 3) :
    taps X k (ix4 c u y x) = X (ix3 c r s) :=
  tap_apply X _ _ _ _ c u y x r s (by omega) (by omega)

/-- Nine arrays of one shape with a unit second axis, stacked along it, read at `(c, k, y, x)`: the `k`-th at
`(c, 0, y, x)`. -/
theorem stack_apply (f : Fin 9 → FVec Ideal S64x1x32x32 .f32)
    (h : Shape.Concatenates ((List.ofFn fun n : Fin 9 => (⟨S64x1x32x32, f n⟩ : (s : Shape) × (s.Idx → EReal))).map (·.1)) S64x9x32x32 1)
    (c : Fin 64) (k : Fin 9) (y x : Fin 32) :
    concatenate S64x9x32x32 1 (List.ofFn fun n : Fin 9 => (⟨S64x1x32x32, f n⟩ : (s : Shape) × (s.Idx → EReal))) h (ix4 c k y x)
      = f k (ix4 c (0 : Fin 1) y x) :=
  concatenate_ofFn_unit_apply (t := S64x9x32x32) (s₁ := S64x1x32x32) 1 f h rfl rfl (ix4 c k y x) k rfl (ix4 c (0 : Fin 1) y x)
    (fun b hb => by
      match b with
      | ⟨0, _⟩ => rfl
      | ⟨1, _⟩ => exact absurd rfl hb
      | ⟨2, _⟩ => rfl
      | ⟨3, _⟩ => rfl)

/-- The patch matrix of one padded image: the nine taps stacked, then merged row-major to `[576, 1024]`. -/
def patches (X : FVec Ideal S64x34x34 .f32) : FVec Ideal S576x1024 .f32 :=
  shapeCast S576x1024
    (shapeCast S576x32x32
      (concatenate S64x9x32x32 1 (List.ofFn fun n : Fin 9 => (⟨S64x1x32x32, taps X n⟩ : (s : Shape) × (s.Idx → EReal)))
        Gen.concatenates_S64x1x32x32_S64x1x32x32_S64x1x32x32_S64x1x32x32_S64x1x32x32_S64x1x32x32_S64x1x32x32_S64x1x32x32_S64x1x32x32_S64x9x32x32_d1)
      Gen.shapeCasts_S64x9x32x32_S576x32x32)
    Gen.shapeCasts_S576x32x32_S576x1024

theorem patches_apply (X : FVec Ideal S64x34x34 .f32) (c : Fin 64) (k : Fin 9) (y x : Fin 32) (p : Fin 576) (l : Fin 1024)
    (hp : p.val = 9 * c.val + k.val) (hl : l.val = 32 * y.val + x.val) (r s : Fin 34)
    (hr : r.val = y.val + k.val / 3) (hs : s.val = x.val + k.val % 3) :
    patches X (ix2 p l) = X (ix3 c r s) := by
  unfold patches
  refine (shapeCast_apply _ Gen.shapeCasts_S576x32x32_S576x1024 (ix2 p l) (ix3 p y x) ?_).trans ?_
  · rw [Shape.rowMajor_val_three, Shape.rowMajor_val_two]
    show (p.val * 32 + y.val) * 32 + x.val = p.val * 1024 + l.val
    omega
  refine (shapeCast_apply _ Gen.shapeCasts_S64x9x32x32_S576x32x32 (ix3 p y x) (ix4 c k y x) ?_).trans ?_
  · rw [Shape.rowMajor_val_four, Shape.rowMajor_val_three]
    show ((c.val * 9 + k.val) * 32 + y.val) * 32 + x.val = (p.val * 32 + y.val) * 32 + x.val
    omega
  exact (stack_apply (taps X) _ c k y x).trans (taps_apply X k c 0 y x r s hr hs)

/-- Column `32 h + w` of the patch matrix is the specification's patch column at `(h, w)`. -/
theorem patches_col (X : FVec Ideal S64x34x34 .f32) (h w : Fin 32) :
    (fun p : Fin 576 => patches X (ix2 p (⟨32 * h.val + w.val, by omega⟩ : Fin 1024))) = Cert.PatchNorm.colImg X h w := by
  funext p
  exact patches_apply X (Cert.PatchNorm.pc p) ⟨p.val % 9, by omega⟩ h w p _
    (by show p.val = 9 * (p.val / 9) + p.val % 9; omega) rfl
    (Cert.PatchNorm.pr h p) (Cert.PatchNorm.pw w p) rfl (by show w.val + p.val % 3 = w.val + p.val % 9 % 3; omega)

/-! ## Column sums, the mean row, the deviation row -/

/-- The sum of a `[576, 1024]` array over its rows, kept as a `[1, 1024]` row. -/
def colSum (A : FVec Ideal S576x1024 .f32) : FVec Ideal S1x1024 .f32 :=
  shapeCast S1x1024 (multiReduction .add [0] S1024 A 0x00000000#32 Gen.reduces_S576x1024_S1024 (.inl rfl) rfl)
    Gen.shapeCasts_S1024_S1x1024

/-- A sum over the rows read at column `l`: the sum of that column. -/
theorem rowReduce_apply (A : FVec Ideal S576x1024 .f32) (hR : S576x1024.Reduces [0] S1024) (hφ : FKind.Formats .f32)
    (hacc : (0x00000000#32 : BitVec (FTy.bits .f32)) = FKind.add.neutral .f32 hφ) (l : Fin 1024) :
    multiReduction (F := Ideal) .add [0] S1024 A 0x00000000#32 hR hφ hacc (ix1 l) = ∑ k : Fin 576, A (ix2 k l) :=
  (Ideal.multiReduction_add_single A 0x00000000#32 hR hφ hacc (ix1 l)).trans
    (Finset.sum_congr rfl fun k _ => congrArg A (funext fun ax => by
      match ax with
      | ⟨0, _⟩ => exact Fin.ext rfl
      | ⟨1, _⟩ => exact Fin.ext rfl))

theorem colSum_apply (A : FVec Ideal S576x1024 .f32) (u : Fin 1) (l : Fin 1024) :
    colSum A (ix2 u l) = ∑ k : Fin 576, A (ix2 k l) :=
  (shapeCast_a_1a_apply _ Gen.shapeCasts_S1024_S1x1024 u l).trans (rowReduce_apply A _ _ _ l)

/-- The row of column means. -/
def meanRow (P : FVec Ideal S576x1024 .f32) : FVec Ideal S1x1024 .f32 :=
  divf (colSum P) (broadcast S1x1024 (Scalar.ofBits .f32 0x44100000#32))

theorem meanRow_apply (P : FVec Ideal S576x1024 .f32) (u : Fin 1) (l : Fin 1024) :
    meanRow P (ix2 u l) = Cert.PatchNorm.mean (fun p => P (ix2 p l)) :=
  congrArg (fun t => Ideal.div t Cert.PatchNorm.c576) (colSum_apply P u l)

/-- The matrix with each column centred by its mean. -/
def centred (P : FVec Ideal S576x1024 .f32) : FVec Ideal S576x1024 .f32 :=
  subf P (broadcastTo S576x1024 (meanRow P) Gen.broadcasts_S1x1024_S576x1024)

theorem centred_apply (P : FVec Ideal S576x1024 .f32) (p : Fin 576) (l : Fin 1024) :
    centred P (ix2 p l) = P (ix2 p l) - Cert.PatchNorm.mean (fun q => P (ix2 q l)) :=
  congrArg (fun t => P (ix2 p l) - t)
    ((broadcastTo_1b_ab_apply (meanRow P) Gen.broadcasts_S1x1024_S576x1024 p l).trans (meanRow_apply P 0 l))

/-- The row of unbiased column deviations. -/
def devRow (P : FVec Ideal S576x1024 .f32) : FVec Ideal S1x1024 .f32 :=
  sqrt (divf (colSum (mulf (centred P) (centred P))) (broadcast S1x1024 (Scalar.ofBits .f32 0x440FC000#32)))

theorem devRow_apply (P : FVec Ideal S576x1024 .f32) (u : Fin 1) (l : Fin 1024) :
    devRow P (ix2 u l) = Cert.PatchNorm.dev (fun p => P (ix2 p l)) :=
  congrArg (fun t => Ideal.sqrt (Ideal.div t Cert.PatchNorm.c575))
    ((colSum_apply (mulf (centred P) (centred P)) u l).trans
      (Finset.sum_congr rfl fun q _ => congrArg (fun t => t * t) (centred_apply P q l)))

/-- The matrix with each column centred and divided by its deviation. -/
def normalized (P : FVec Ideal S576x1024 .f32) : FVec Ideal S576x1024 .f32 :=
  divf (centred P) (broadcastTo S576x1024 (devRow P) Gen.broadcasts_S1x1024_S576x1024)

theorem normalized_apply (P : FVec Ideal S576x1024 .f32) (p : Fin 576) (l : Fin 1024) :
    normalized P (ix2 p l)
      = Ideal.div (P (ix2 p l) - Cert.PatchNorm.mean (fun q => P (ix2 q l))) (Cert.PatchNorm.dev (fun q => P (ix2 q l))) :=
  congrArg₂ Ideal.div (centred_apply P p l)
    ((broadcastTo_1b_ab_apply (devRow P) Gen.broadcasts_S1x1024_S576x1024 p l).trans (devRow_apply P 0 l))

/-! ## The projection -/

/-- The product's dimension numbers: axis 0 of both operands is contracted, `result[o, l] = Σ_p lhs[p, o] · rhs[p, l]`. -/
abbrev projDims : DotDims S576x64 S576x1024 S64x1024 := dot_S576x64_S576x1024_S64x1024_0_0_1_1_n_n

/-- On the kept axis of the left operand the operand index is the result's row coordinate. -/
theorem projDims_lhs_1 (i : S64x1024.Idx) (q : projDims.contr.Idx) : (projDims.lhsIdx i q 1).val = (i 0).val := by
  unfold DotDims.lhsIdx
  rw [dif_neg (show ¬(1 : Fin S576x64.rank) ∈ projDims.lhsBatch by decide),
    dif_pos (show (1 : Fin S576x64.rank) ∈ projDims.lhsNonContracting by decide)]
  rfl

/-- On the kept axis of the right operand the operand index is the result's column coordinate. -/
theorem projDims_rhs_1 (i : S64x1024.Idx) (q : projDims.contr.Idx) : (projDims.rhsIdx i q 1).val = (i 1).val := by
  unfold DotDims.rhsIdx
  rw [dif_neg (show ¬(1 : Fin S576x1024.rank) ∈ projDims.rhsBatch by decide),
    dif_pos (show (1 : Fin S576x1024.rank) ∈ projDims.rhsNonContracting by decide)]
  rfl

/-- The matrix product into a zero accumulator, read at `(o, l)`. -/
theorem matmul_zero_apply (K : FVec Ideal S576x64 .bf16) (N : FVec Ideal S576x1024 .bf16) (o : Fin 64) (l : Fin 1024) :
    matmul projDims none K N (constant (F := Ideal) S64x1024 .f32 0x00000000#32) (ix2 o l)
      = ∑ p : Fin 576, K (ix2 p o) * N (ix2 p l) := by
  refine (Ideal.matmul_constant_zero_apply projDims none K N (ix2 o l)).trans ?_
  rw [← Equiv.sum_comp (contrEquiv1 projDims 576 rfl rfl).symm]
  refine Finset.sum_congr rfl fun k _ => ?_
  have hk := contrEquiv1_symm_val projDims 576 rfl rfl k
  have el : projDims.lhsIdx (ix2 o l) ((contrEquiv1 projDims 576 rfl rfl).symm k) = ix2 k o := funext fun a => Fin.ext (by
    match a with
    | ⟨0, _⟩ => exact (projDims.lhsIdx_val_of_single rfl _ _).trans hk
    | ⟨1, _⟩ => exact projDims_lhs_1 _ _)
  have er : projDims.rhsIdx (ix2 o l) ((contrEquiv1 projDims 576 rfl rfl).symm k) = ix2 k l := funext fun a => Fin.ext (by
    match a with
    | ⟨0, _⟩ => exact (projDims.rhsIdx_val_of_single rfl _ _).trans hk
    | ⟨1, _⟩ => exact projDims_rhs_1 _ _)
  rw [el, er]

/-- The normalized matrix (its format change is the identity on exact values) multiplied into the projection matrix,
as a `[1, 64, 1024]` block. -/
def project (K : FVec Ideal S576x64 .bf16) (N : FVec Ideal S576x1024 .f32) : FVec Ideal S1x64x1024 .f32 :=
  shapeCast S1x64x1024
    (matmul projDims none K (truncf .bf16 N Gen.bitsLt_bf16_f32) (constant S64x1024 .f32 0x00000000#32))
    Gen.shapeCasts_S64x1024_S1x64x1024

theorem project_apply (K : FVec Ideal S576x64 .bf16) (N : FVec Ideal S576x1024 .f32) (u : Fin 1) (o : Fin 64) (l : Fin 1024) :
    project K N (ix3 u o l) = ∑ p : Fin 576, K (ix2 p o) * N (ix2 p l) :=
  (shapeCast_ab_1ab_apply _ Gen.shapeCasts_S64x1024_S1x64x1024 u o l).trans
    (matmul_zero_apply K (truncf .bf16 N Gen.bitsLt_bf16_f32) o l)

/-! ## The payload -/

/-- The generated payload is the projection of the normalized patch matrix. -/
theorem pay_eq (v1 : FVec Ideal S576x64 .bf16) (X : FVec Ideal S64x34x34 .f32) :
    Gen.k0_pay1 (F := Ideal) v1 X = project v1 (normalized (patches X)) := rfl

theorem pay_apply (v1 : FVec Ideal S576x64 .bf16) (X : FVec Ideal S64x34x34 .f32) (o : Fin 64) (h w : Fin 32) :
    Gen.k0_pay1 (F := Ideal) v1 X (ix3 (0 : Fin 1) o (⟨32 * h.val + w.val, by omega⟩ : Fin 1024))
      = Cert.PatchNorm.entry (Cert.PatchNorm.colImg X h w) (fun p => v1 (ix2 p o)) := by
  rw [pay_eq, project_apply, ← patches_col X h w]
  exact Finset.sum_congr rfl fun p _ => congrArg (fun t => v1 (ix2 p o) * t) (normalized_apply (patches X) p _)

end Cert.KernelIdeal.Entry

end
-- ==== Proof.KernelBlocks.lean ====
/-
  One grid point of the kernel: the output staging buffer [4, 64, 1024] after the body, as one function of the point's
  two input blocks. The body handles the block's four padded images one after the other, each by the same per-image
  computation, and stores image `j`'s [64, 1024] result at row `j` of the buffer; so entry `(j, o, 32 h + w)` is the
  specification's entry of image `j`'s patch column at `(h, w)` against column `o` of the matrix block.
-/
import proofs.«119388_j32538672234775_2_alg».proof.Proof.Gen.KernelIdeal.Frame
import proofs.«119388_j32538672234775_2_alg».proof.Proof.KernelEntry
import proofs.«119388_j32538672234775_2_alg».proof.Proof.PatchNorm
import Idealize.ShloMosaic.Lib.Pipeline.Value
import Idealize.ShloMosaic.Lib.ValueLayout

noncomputable section

namespace Cert.KernelIdeal.Whole

open Cert.KernelIdeal Cert.KernelIdeal.Gen Idealize.ShloMosaic Idealize.ShloMosaic.TcCoe Idealize.SL.Sem
open Idealize.ShloMosaic.ValueIdx
open Cert.PatchNorm (entry colImg pc pr pw)

/-- Row and column of a flattened position. -/
def rowOf (l : Fin 1024) : Fin 32 := ⟨l.val / 32, by omega⟩
def colOf (l : Fin 1024) : Fin 32 := ⟨l.val % 32, by omega⟩

theorem pos_eq (l : Fin 1024) : l = (⟨32 * (rowOf l).val + (colOf l).val, by have := (rowOf l).isLt; have := (colOf l).isLt; omega⟩ : Fin 1024) :=
  Fin.ext (by show l.val = 32 * (l.val / 32) + l.val % 32; omega)

/-- The buffer's entry `(j, o, l)` from the point's image block `x0` and matrix block `x1`. -/
def blockAt (x0 : S4x64x34x34.Idx → EReal) (x1 : S576x64.Idx → EReal) (j : Fin 4) (o : Fin 64) (l : Fin 1024) : EReal :=
  entry (fun p => x0 (ix4 j (pc p) (pr (rowOf l) p) (pw (colOf l) p))) (fun p => x1 (ix2 p o))

/-- The whole buffer. -/
def blockFn (x0 : S4x64x34x34.Idx → EReal) (x1 : S576x64.Idx → EReal) : S4x64x1024.Idx → EReal :=
  fun y => blockAt x0 x1 (y 0) (y 1) (y 2)

theorem blockFn_ix3 (x0 : S4x64x34x34.Idx → EReal) (x1 : S576x64.Idx → EReal) (j : Fin 4) (o : Fin 64) (l : Fin 1024) :
    blockFn x0 x1 (ix3 j o l) = blockAt x0 x1 j o l := rfl

/-- The three earlier images' payloads are the last image's: one per-image body. -/
theorem pay3_eq (v0 : Vec Ideal S576x64 .f32) (v3 : Vec Ideal S1x64x34x34 .f32) :
    k0_pay3 (F := Ideal) v0 v3 = k0_pay1 (k0_pay2 v0) (k0_pay6 v3) := rfl
theorem pay4_eq (v1 : FVec Ideal S576x64 .bf16) (v47 : Vec Ideal S1x64x34x34 .f32) :
    k0_pay4 (F := Ideal) v1 v47 = k0_pay1 v1 (k0_pay6 v47) := rfl
theorem pay5_eq (v1 : FVec Ideal S576x64 .bf16) (v91 : Vec Ideal S1x64x34x34 .f32) :
    k0_pay5 (F := Ideal) v1 v91 = k0_pay1 v1 (k0_pay6 v91) := rfl

theorem hz2 : (![0, 0] : Fin 2 → Nat) = fun _ => 0 := funext fun a => by fin_cases a <;> rfl

/-- The matrix block, rounded: at the exact values, the block. -/
theorem kmat_apply (x1 : Vec Ideal S576x64 .f32) (p : Fin 576) (o : Fin 64) :
    k0_pay2 (F := Ideal) (View.ld x1 r0_0) (ix2 p o) = x1 (ix2 p o) := by
  unfold k0_pay2
  rw [View.ld_unit_zero (S := S576x64) hz2]
  rfl

/-- Image 3 of the block, its leading unit axis dropped. -/
theorem img3_apply (x0 : Vec Ideal S4x64x34x34 .f32) (c : Fin 64) (r s : Fin 34) :
    k0_pay6 (F := Ideal) (View.ld x0 r0_7) (ix3 c r s) = x0 (ix4 (3 : Fin 4) c r s) := by
  unfold k0_pay6
  refine (shapeCast_1abc_abc_apply _ _ c r s).trans ?_
  show x0 (r0_7.emb (ix4 (0 : Fin 1) c r s)) = x0 (ix4 (3 : Fin 4) c r s)
  refine congrArg x0 (funext fun a => Fin.ext ?_)
  match a with
  | ⟨0, _⟩ => rfl
  | ⟨1, _⟩ => show 0 + 1 * c.val = c.val; omega
  | ⟨2, _⟩ => show 0 + 1 * r.val = r.val; omega
  | ⟨3, _⟩ => show 0 + 1 * s.val = s.val; omega

/-- Image 2 of the block, its leading unit axis dropped. -/
theorem img2_apply (x0 : Vec Ideal S4x64x34x34 .f32) (c : Fin 64) (r s : Fin 34) :
    k0_pay6 (F := Ideal) (View.ld x0 r0_5) (ix3 c r s) = x0 (ix4 (2 : Fin 4) c r s) := by
  unfold k0_pay6
  refine (shapeCast_1abc_abc_apply _ _ c r s).trans ?_
  show x0 (r0_5.emb (ix4 (0 : Fin 1) c r s)) = x0 (ix4 (2 : Fin 4) c r s)
  refine congrArg x0 (funext fun a => Fin.ext ?_)
  match a with
  | ⟨0, _⟩ => rfl
  | ⟨1, _⟩ => show 0 + 1 * c.val = c.val; omega
  | ⟨2, _⟩ => show 0 + 1 * r.val = r.val; omega
  | ⟨3, _⟩ => show 0 + 1 * s.val = s.val; omega

/-- Image 1 of the block, its leading unit axis dropped. -/
theorem img1_apply (x0 : Vec Ideal S4x64x34x34 .f32) (c : Fin 64) (r s : Fin 34) :
    k0_pay6 (F := Ideal) (View.ld x0 r0_3) (ix3 c r s) = x0 (ix4 (1 : Fin 4) c r s) := by
  unfold k0_pay6
  refine (shapeCast_1abc_abc_apply _ _ c r s).trans ?_
  show x0 (r0_3.emb (ix4 (0 : Fin 1) c r s)) = x0 (ix4 (1 : Fin 4) c r s)
  refine congrArg x0 (funext fun a => Fin.ext ?_)
  match a with
  | ⟨0, _⟩ => rfl
  | ⟨1, _⟩ => show 0 + 1 * c.val = c.val; omega
  | ⟨2, _⟩ => show 0 + 1 * r.val = r.val; omega
  | ⟨3, _⟩ => show 0 + 1 * s.val = s.val; omega

/-- Image 0 of the block, its leading unit axis dropped. -/
theorem img0_apply (x0 : Vec Ideal S4x64x34x34 .f32) (c : Fin 64) (r s : Fin 34) :
    k0_pay6 (F := Ideal) (View.ld x0 r0_1) (ix3 c r s) = x0 (ix4 (0 : Fin 4) c r s) := by
  unfold k0_pay6
  refine (shapeCast_1abc_abc_apply _ _ c r s).trans ?_
  show x0 (r0_1.emb (ix4 (0 : Fin 1) c r s)) = x0 (ix4 (0 : Fin 4) c r s)
  refine congrArg x0 (funext fun a => Fin.ext ?_)
  match a with
  | ⟨0, _⟩ => rfl
  | ⟨1, _⟩ => show 0 + 1 * c.val = c.val; omega
  | ⟨2, _⟩ => show 0 + 1 * r.val = r.val; omega
  | ⟨3, _⟩ => show 0 + 1 * s.val = s.val; omega

/-- The store of image 3's result is row 3 of the buffer's function. -/
theorem piece3 (x0 : Vec Ideal S4x64x34x34 .f32) (x1 : Vec Ideal S576x64 .f32) (x : S1x64x1024.Idx) :
    k0_pay1 (F := Ideal) (k0_pay2 (View.ld x1 r0_0)) (k0_pay6 (View.ld x0 r0_7)) x = blockFn x0 x1 (r0_8.emb x) := by
  obtain ⟨u, o, l, rfl⟩ : ∃ (u : Fin 1) (o : Fin 64) (l : Fin 1024), x = ix3 u o l := ⟨x 0, x 1, x 2, eq_ix3 x⟩
  obtain rfl : u = 0 := Subsingleton.elim _ _
  have he : r0_8.emb (ix3 (0 : Fin 1) o l) = ix3 (3 : Fin 4) o l := funext fun a => Fin.ext (by
    match a with
    | ⟨0, _⟩ => rfl
    | ⟨1, _⟩ => show 0 + 1 * o.val = o.val; omega
    | ⟨2, _⟩ => show 0 + 1 * l.val = l.val; omega)
  rw [he, blockFn_ix3]
  conv_lhs => rw [pos_eq l]
  rw [Cert.KernelIdeal.Entry.pay_apply]
  unfold blockAt colImg
  simp only [img3_apply, kmat_apply]

/-- The store of image 2's result is row 2 of the buffer's function. -/
theorem piece2 (x0 : Vec Ideal S4x64x34x34 .f32) (x1 : Vec Ideal S576x64 .f32) (x : S1x64x1024.Idx) :
    k0_pay1 (F := Ideal) (k0_pay2 (View.ld x1 r0_0)) (k0_pay6 (View.ld x0 r0_5)) x = blockFn x0 x1 (r0_6.emb x) := by
  obtain ⟨u, o, l, rfl⟩ : ∃ (u : Fin 1) (o : Fin 64) (l : Fin 1024), x = ix3 u o l := ⟨x 0, x 1, x 2, eq_ix3 x⟩
  obtain rfl : u = 0 := Subsingleton.elim _ _
  have he : r0_6.emb (ix3 (0 : Fin 1) o l) = ix3 (2 : Fin 4) o l := funext fun a => Fin.ext (by
    match a with
    | ⟨0, _⟩ => rfl
    | ⟨1, _⟩ => show 0 + 1 * o.val = o.val; omega
    | ⟨2, _⟩ => show 0 + 1 * l.val = l.val; omega)
  rw [he, blockFn_ix3]
  conv_lhs => rw [pos_eq l]
  rw [Cert.KernelIdeal.Entry.pay_apply]
  unfold blockAt colImg
  simp only [img2_apply, kmat_apply]

/-- The store of image 1's result is row 1 of the buffer's function. -/
theorem piece1 (x0 : Vec Ideal S4x64x34x34 .f32) (x1 : Vec Ideal S576x64 .f32) (x : S1x64x1024.Idx) :
    k0_pay1 (F := Ideal) (k0_pay2 (View.ld x1 r0_0)) (k0_pay6 (View.ld x0 r0_3)) x = blockFn x0 x1 (r0_4.emb x) := by
  obtain ⟨u, o, l, rfl⟩ : ∃ (u : Fin 1) (o : Fin 64) (l : Fin 1024), x = ix3 u o l := ⟨x 0, x 1, x 2, eq_ix3 x⟩
  obtain rfl : u = 0 := Subsingleton.elim _ _
  have he : r0_4.emb (ix3 (0 : Fin 1) o l) = ix3 (1 : Fin 4) o l := funext fun a => Fin.ext (by
    match a with
    | ⟨0, _⟩ => rfl
    | ⟨1, _⟩ => show 0 + 1 * o.val = o.val; omega
    | ⟨2, _⟩ => show 0 + 1 * l.val = l.val; omega)
  rw [he, blockFn_ix3]
  conv_lhs => rw [pos_eq l]
  rw [Cert.KernelIdeal.Entry.pay_apply]
  unfold blockAt colImg
  simp only [img1_apply, kmat_apply]

/-- The store of image 0's result is row 0 of the buffer's function. -/
theorem piece0 (x0 : Vec Ideal S4x64x34x34 .f32) (x1 : Vec Ideal S576x64 .f32) (x : S1x64x1024.Idx) :
    k0_pay1 (F := Ideal) (k0_pay2 (View.ld x1 r0_0)) (k0_pay6 (View.ld x0 r0_1)) x = blockFn x0 x1 (r0_2.emb x) := by
  obtain ⟨u, o, l, rfl⟩ : ∃ (u : Fin 1) (o : Fin 64) (l : Fin 1024), x = ix3 u o l := ⟨x 0, x 1, x 2, eq_ix3 x⟩
  obtain rfl : u = 0 := Subsingleton.elim _ _
  have he : r0_2.emb (ix3 (0 : Fin 1) o l) = ix3 (0 : Fin 4) o l := funext fun a => Fin.ext (by
    match a with
    | ⟨0, _⟩ => rfl
    | ⟨1, _⟩ => show 0 + 1 * o.val = o.val; omega
    | ⟨2, _⟩ => show 0 + 1 * l.val = l.val; omega)
  rw [he, blockFn_ix3]
  conv_lhs => rw [pos_eq l]
  rw [Cert.KernelIdeal.Entry.pay_apply]
  unfold blockAt colImg
  simp only [img0_apply, kmat_apply]

/-- What the body leaves in the output buffer: its four stores are the four rows of one function, and they cover the
    buffer. -/
theorem out_eq (x0 : Vec Ideal S4x64x34x34 .f32) (x1 : Vec Ideal S576x64 .f32) :
    out0_2 (F := Ideal) x0 x1 = blockFn x0 x1 := by
  funext y
  unfold out0_2
  rw [pay3_eq, pay4_eq, pay5_eq]
  refine View.canon_apply_of_pieces (Val := Elt Ideal) (e := .f32) (blockFn x0 x1) _ (fun p hp => ?_) y (cover0_2 _ _ _ _ y)
  simp only [List.mem_cons, List.mem_nil_iff, or_false] at hp
  rcases hp with rfl | rfl | rfl | rfl
  · exact piece3 x0 x1
  · exact piece2 x0 x1
  · exact piece1 x0 x1
  · exact piece0 x0 x1

end Cert.KernelIdeal.Whole

end
-- ==== Proof.KernelArray.lean ====
/-
  The kernel's output array [256, 64, 1024] after the whole grid. Point `t` of the 64 stages images `4 t … 4 t + 3` of
  the padded array and the whole projection matrix, and writes back rows `4 t … 4 t + 3` of the output; so what it writes
  is a block of ONE function of the two arrays as the region finds them: entry `(b, o, 32 h + w)` is the specification's
  entry of image `b`'s patch column at `(h, w)` against column `o` of the matrix. The 64 blocks cover the array.
-/
import proofs.«119388_j32538672234775_2_alg».proof.Proof.Gen.KernelIdeal.Frame
import proofs.«119388_j32538672234775_2_alg».proof.Proof.KernelBlocks
import Idealize.ShloMosaic.Lib.Pipeline.Value

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)
open Cert.PatchNorm (entry col pc pr pw)

variable (m : (ℓ : Loc nD τ sig) → Buf (Elt Ideal) ℓ) (ρ : Dev nD → PrngReg)

/-- The output array's entry `(b, o, l)` from the padded array and the matrix. -/
def arrAtIdx (ap : S256x64x34x34.Idx → EReal) (K : S576x64.Idx → EReal) (b : Fin 256) (o : Fin 64) (l : Fin 1024) : EReal :=
  entry (col ap b (rowOf l) (colOf l)) (fun p => K (ix2 p o))

/-- The whole output array. -/
def arrFn (ap : S256x64x34x34.Idx → EReal) (K : S576x64.Idx → EReal) : S256x64x1024.Idx → EReal :=
  fun i => arrAtIdx ap K (i 0) (i 1) (i 2)

theorem arrFn_ix3 (ap : S256x64x34x34.Idx → EReal) (K : S576x64.Idx → EReal) (b : Fin 256) (o : Fin 64) (l : Fin 1024) :
    arrFn ap K (ix3 b o l) = arrAtIdx ap K b o l := rfl

/-- The three index maps over the grid: the image window and the output window move with the point along the leading
    axis, the matrix window stays. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0 :=
  (by decide +kernel : ∀ t : Fin grid0.N, _)

/-- The image block at point `t` is images `4 t … 4 t + 3` of the padded array. -/
theorem iblk0_apply (c : Dev nD) (t : Fin cfg0.N) (j : Fin 4) (cc : Fin 64) (r s : Fin 34) (b : Fin 256)
    (hb : b.val = 4 * t.val + j.val) :
    (iblk m c 0 t : Vec Ideal S4x64x34x34 .f32) (ix4 j cc r s) = (V m c main_v0 : S256x64x34x34.Idx → EReal) (ix4 b cc r s) := by
  obtain ⟨e0, e1, e2, e3, -⟩ := idx_facts t
  unfold iblk
  rw [View.read_apply]
  show V m c main_v0 _ = V m c main_v0 _
  refine congrArg (V m c main_v0) (funext fun a => Fin.ext ?_)
  match a with
  | ⟨0, _⟩ => show win0_0.index t (0 : Fin 4) * 4 + 1 * j.val = b.val; omega
  | ⟨1, _⟩ => show win0_0.index t (1 : Fin 4) * 64 + 1 * cc.val = cc.val; omega
  | ⟨2, _⟩ => show win0_0.index t (2 : Fin 4) * 34 + 1 * r.val = r.val; omega
  | ⟨3, _⟩ => show win0_0.index t (3 : Fin 4) * 34 + 1 * s.val = s.val; omega

/-- The matrix block at any point is the matrix. -/
theorem iblk1_apply (c : Dev nD) (t : Fin cfg0.N) (p : Fin 576) (o : Fin 64) :
    (iblk m c 1 t : Vec Ideal S576x64 .f32) (ix2 p o) = (V m c main_arg1 : S576x64.Idx → EReal) (ix2 p o) := by
  obtain ⟨-, -, -, -, e4, e5, -⟩ := idx_facts t
  unfold iblk
  rw [View.read_apply]
  show V m c main_arg1 _ = V m c main_arg1 _
  refine congrArg (V m c main_arg1) (funext fun a => Fin.ext ?_)
  match a with
  | ⟨0, _⟩ => show win0_1.index t (0 : Fin 2) * 576 + 1 * p.val = p.val; omega
  | ⟨1, _⟩ => show win0_1.index t (1 : Fin 2) * 64 + 1 * o.val = o.val; omega

/-- Entry by entry: the buffer's function of the point's blocks is the array's function at the block's place. -/
theorem flushed_pt (c : Dev nD) (t : Fin cfg0.N) (y : S4x64x1024.Idx) :
    blockFn (iblk m c 0 t) (iblk m c 1 t) y
      = arrFn (V m c main_v0) (V m c main_arg1) (((cfg0.win 2).blk t).view.emb y) := by
  obtain ⟨j, o, l, rfl⟩ : ∃ (j : Fin 4) (o : Fin 64) (l : Fin 1024), y = ix3 j o l := ⟨y 0, y 1, y 2, eq_ix3 y⟩
  obtain ⟨-, -, -, -, -, -, e6, e7, e8⟩ := idx_facts t
  have hN : cfg0.N = 64 := N_0
  have ht : t.val < 64 := hN ▸ t.isLt
  have hb : 4 * t.val + j.val < 256 := by have := j.isLt; omega
  have he : ((cfg0.win 2).blk t).view.emb (ix3 j o l) = ix3 (⟨4 * t.val + j.val, hb⟩ : Fin 256) o l :=
    funext fun a => Fin.ext (by
      match a with
      | ⟨0, _⟩ => show win0_2.index t (0 : Fin 3) * 4 + 1 * j.val = 4 * t.val + j.val; omega
      | ⟨1, _⟩ => show win0_2.index t (1 : Fin 3) * 64 + 1 * o.val = o.val; omega
      | ⟨2, _⟩ => show win0_2.index t (2 : Fin 3) * 1024 + 1 * l.val = l.val; omega)
  rw [he, blockFn_ix3, arrFn_ix3]
  unfold blockAt arrAtIdx col
  exact congrArg₂ entry (funext fun p => iblk0_apply m c t j _ _ _ _ rfl) (funext fun p => iblk1_apply m c t p o)

/-- WHAT POINT `t` WRITES BACK is block `t` of the array's function. -/
theorem flushed_eq (c : Dev nD) (t : Fin cfg0.N) :
    (dats m 0 c).flushed 2 t
      = ((cfg0.win 2).blk t).view.read (Elt Ideal) (arrFn (V m c main_v0) (V m c main_arg1)) := by
  show (cfg0.win 2).cut (grid0.coords t) ((dats m 0 c).after 2 t) = _
  rw [after0_2]
  refine (congrArg ((cfg0.win 2).cut (grid0.coords t)) (out_eq (iblk m c 0 t) (iblk m c 1 t))).trans ?_
  funext y
  exact flushed_pt m c t y

/-- An index of the array is in point `t`'s block iff each coordinate is in the block's range on its axis. -/
theorem mem_blk (t : Fin cfg0.N) (i : S256x64x1024.Idx) :
    i ∈ ((cfg0.win 2).blk t).view.set ↔ ∀ a : Fin 3, win0_2.index t a * S4x64x1024.size a ≤ (i a).val
      ∧ (i a).val < win0_2.index t a * S4x64x1024.size a + S4x64x1024.size a := by
  show i ∈ ((View.whole main_v1).slice (win0_2.rect t)).set ↔ _
  rw [View.set_slice_whole, Rect.mem_set_unit]
  exact Iff.rfl

/-- THE ARRAY after the run: image `b` is covered by point `b / 4`. -/
theorem final (c : Dev nD) : (dats m 0 c).arrAt 2 cfg0.N = arrFn (V m c main_v0) (V m c main_arg1) :=
  (dats m 0 c).arrAt_eq_of_cover 2 (arrFn (V m c main_v0) (V m c main_arg1)) (fun t _ => flushed_eq m c t) fun i => by
    have hN : cfg0.N = 64 := N_0
    have h0 : (i 0).val < 256 := (i 0).isLt
    have h1 : (i 1).val < 64 := (i 1).isLt
    have h2 : (i 2).val < 1024 := (i 2).isLt
    have ht : (i 0).val / 4 < cfg0.N := by rw [hN]; omega
    obtain ⟨-, -, -, -, -, -, e6, e7, e8⟩ := idx_facts ⟨(i 0).val / 4, ht⟩
    refine ⟨⟨(i 0).val / 4, ht⟩, flush0_2 _, ?_⟩
    rw [mem_blk]
    intro a
    match a with
    | ⟨0, _⟩ =>
      show win0_2.index ⟨(i 0).val / 4, ht⟩ (0 : Fin 3) * 4 ≤ (i 0).val ∧ (i 0).val < win0_2.index ⟨(i 0).val / 4, ht⟩ (0 : Fin 3) * 4 + 4
      rw [e6]; show (i 0).val / 4 * 4 ≤ (i 0).val ∧ (i 0).val < (i 0).val / 4 * 4 + 4; omega
    | ⟨1, _⟩ =>
      show win0_2.index ⟨(i 0).val / 4, ht⟩ (1 : Fin 3) * 64 ≤ (i 1).val ∧ (i 1).val < win0_2.index ⟨(i 0).val / 4, ht⟩ (1 : Fin 3) * 64 + 64
      rw [e7]; omega
    | ⟨2, _⟩ =>
      show win0_2.index ⟨(i 0).val / 4, ht⟩ (2 : Fin 3) * 1024 ≤ (i 2).val ∧ (i 2).val < win0_2.index ⟨(i 0).val / 4, ht⟩ (2 : Fin 3) * 1024 + 1024
      rw [e8]; omega

end Cert.KernelIdeal.Whole

end
-- ==== Proof.RefTerm.lean ====
/-
  The reference's result as a term of its two argument arrays, in three stages: the reflect-padding of the image array,
  the patch columns cut out of the padded array (nine shifted windows stacked, the channel and tap axes merged, the
  position axis moved in front of them), and the normalization of each column followed by the projection and the
  return to the image layout.
-/
import proofs.«119388_j32538672234775_2_alg».proof.ReferenceIdeal

noncomputable section

namespace Cert.ReferenceIdeal.RefTerm

open Idealize.ShloMosaic Cert.ReferenceIdeal Cert.ReferenceIdeal.Facts₀

variable {F : FTy → Type} [FloatOps F] [Facts]

/-- Reflect-padding by one on the two image axes: the row above the first is row 1, the row below the last is row 30,
    then the same for the columns of the result. -/
def padT (x : FVec F S256x64x32x32 .f32) : FVec F S256x64x34x34 .f32 :=
  let v1 : FVec F S256x64x1x32 .f32 := extractStridedSlice S256x64x1x32 ![0, 0, 1, 0] x slices_S256x64x32x32_S256x64x1x32_0_0_1_0
  let v2 : FVec F S256x64x1x32 .f32 := Host.reverse [2] v1
  let v3 : FVec F S256x64x33x32 .f32 := concatenate S256x64x33x32 2 [⟨S256x64x1x32, v2⟩, ⟨S256x64x32x32, x⟩] concatenates_S256x64x1x32_S256x64x32x32_S256x64x33x32_d2
  let v5 : FVec F S256x64x1x32 .f32 := extractStridedSlice S256x64x1x32 ![0, 0, 31, 0] v3 slices_S256x64x33x32_S256x64x1x32_0_0_31_0
  let v6 : FVec F S256x64x1x32 .f32 := Host.reverse [2] v5
  let v7 : FVec F S256x64x34x32 .f32 := concatenate S256x64x34x32 2 [⟨S256x64x33x32, v3⟩, ⟨S256x64x1x32, v6⟩] concatenates_S256x64x33x32_S256x64x1x32_S256x64x34x32_d2
  let v9 : FVec F S256x64x34x1 .f32 := extractStridedSlice S256x64x34x1 ![0, 0, 0, 1] v7 slices_S256x64x34x32_S256x64x34x1_0_0_0_1
  let v10 : FVec F S256x64x34x1 .f32 := Host.reverse [3] v9
  let v11 : FVec F S256x64x34x33 .f32 := concatenate S256x64x34x33 3 [⟨S256x64x34x1, v10⟩, ⟨S256x64x34x32, v7⟩] concatenates_S256x64x34x1_S256x64x34x32_S256x64x34x33_d3
  let v13 : FVec F S256x64x34x1 .f32 := extractStridedSlice S256x64x34x1 ![0, 0, 0, 31] v11 slices_S256x64x34x33_S256x64x34x1_0_0_0_31
  let v14 : FVec F S256x64x34x1 .f32 := Host.reverse [3] v13
  concatenate S256x64x34x34 3 [⟨S256x64x34x33, v11⟩, ⟨S256x64x34x1, v14⟩] concatenates_S256x64x34x33_S256x64x34x1_S256x64x34x34_d3

/-- The nine shifted 32×32 windows of the padded array, stacked along a new axis after the channel axis. -/
def stackT (ap : FVec F S256x64x34x34 .f32) : FVec F S256x64x9x32x32 .f32 :=
  concatenate S256x64x9x32x32 2 [⟨S256x64x1x32x32, broadcastInDim S256x64x1x32x32 ![0, 1, 3, 4] bcast_S256x64x32x32_S256x64x1x32x32_0_1_3_4 (extractStridedSlice S256x64x32x32 ![0, 0, 0, 0] ap slices_S256x64x34x34_S256x64x32x32_0_0_0_0)⟩,
    ⟨S256x64x1x32x32, broadcastInDim S256x64x1x32x32 ![0, 1, 3, 4] bcast_S256x64x32x32_S256x64x1x32x32_0_1_3_4 (extractStridedSlice S256x64x32x32 ![0, 0, 0, 1] ap slices_S256x64x34x34_S256x64x32x32_0_0_0_1)⟩,
    ⟨S256x64x1x32x32, broadcastInDim S256x64x1x32x32 ![0, 1, 3, 4] bcast_S256x64x32x32_S256x64x1x32x32_0_1_3_4 (extractStridedSlice S256x64x32x32 ![0, 0, 0, 2] ap slices_S256x64x34x34_S256x64x32x32_0_0_0_2)⟩,
    ⟨S256x64x1x32x32, broadcastInDim S256x64x1x32x32 ![0, 1, 3, 4] bcast_S256x64x32x32_S256x64x1x32x32_0_1_3_4 (extractStridedSlice S256x64x32x32 ![0, 0, 1, 0] ap slices_S256x64x34x34_S256x64x32x32_0_0_1_0)⟩,
    ⟨S256x64x1x32x32, broadcastInDim S256x64x1x32x32 ![0, 1, 3, 4] bcast_S256x64x32x32_S256x64x1x32x32_0_1_3_4 (extractStridedSlice S256x64x32x32 ![0, 0, 1, 1] ap slices_S256x64x34x34_S256x64x32x32_0_0_1_1)⟩,
    ⟨S256x64x1x32x32, broadcastInDim S256x64x1x32x32 ![0, 1, 3, 4] bcast_S256x64x32x32_S256x64x1x32x32_0_1_3_4 (extractStridedSlice S256x64x32x32 ![0, 0, 1, 2] ap slices_S256x64x34x34_S256x64x32x32_0_0_1_2)⟩,
    ⟨S256x64x1x32x32, broadcastInDim S256x64x1x32x32 ![0, 1, 3, 4] bcast_S256x64x32x32_S256x64x1x32x32_0_1_3_4 (extractStridedSlice S256x64x32x32 ![0, 0, 2, 0] ap slices_S256x64x34x34_S256x64x32x32_0_0_2_0)⟩,
    ⟨S256x64x1x32x32, broadcastInDim S256x64x1x32x32 ![0, 1, 3, 4] bcast_S256x64x32x32_S256x64x1x32x32_0_1_3_4 (extractStridedSlice S256x64x32x32 ![0, 0, 2, 1] ap slices_S256x64x34x34_S256x64x32x32_0_0_2_1)⟩,
    ⟨S256x64x1x32x32, broadcastInDim S256x64x1x32x32 ![0, 1, 3, 4] bcast_S256x64x32x32_S256x64x1x32x32_0_1_3_4 (extractStridedSlice S256x64x32x32 ![0, 0, 2, 2] ap slices_S256x64x34x34_S256x64x32x32_0_0_2_2)⟩]
    concatenates_S256x64x1x32x32_S256x64x1x32x32_S256x64x1x32x32_S256x64x1x32x32_S256x64x1x32x32_S256x64x1x32x32_S256x64x1x32x32_S256x64x1x32x32_S256x64x1x32x32_S256x64x9x32x32_d2

/-- The patch columns: channel and tap merged into one axis of 576, the 1024 positions in front of it. -/
def colsT (ap : FVec F S256x64x34x34 .f32) : FVec F S256x1024x576 .f32 :=
  transpose S256x1024x576 [0, 2, 1] (shapeCast S256x576x1024 (stackT ap) shapeCasts_S256x64x9x32x32_S256x576x1024)
    transposes_S256x576x1024_S256x1024x576_0_2_1

/-- The mean of each column, kept as a last axis of extent one. -/
def meanT (cols : FVec F S256x1024x576 .f32) : FVec F S256x1024x1 .f32 :=
  Host.divf
    (broadcastInDim S256x1024x1 ![0, 1] bcast_S256x1024_S256x1024x1_0_1
      (Host.reduceAdd cols (constant (F := F) S_ .f32 0x00000000#32) reducesTo_S256x1024x576_S256x1024_d2 h_S_))
    (broadcastInDim S256x1024x1 ![] bcast_S_S256x1024x1 (constant (F := F) S_ .f32 0x44100000#32))

/-- The divisor of the unbiased estimate, as the reference computes it: 576 minus the correction 1 read as a float. -/
def corrT : FVec F S_ .f32 :=
  subf (constant (F := F) S_ .f32 0x44100000#32) (sitofp .f32 (constantI S_ 32 1#32))

/-- The unbiased variance of each column, guarded by the test that the divisor is positive. -/
def varT (cols : FVec F S256x1024x576 .f32) : FVec F S256x1024x1 .f32 :=
  let d : FVec F S256x1024x576 .f32 := subf cols (broadcastInDim S256x1024x576 ![0, 1, 2] bcast_S256x1024x1_S256x1024x576_0_1_2 (meanT cols))
  let q : FVec F S256x1024x1 .f32 := Host.divf
    (broadcastInDim S256x1024x1 ![0, 1] bcast_S256x1024_S256x1024x1_0_1
      (Host.reduceAdd (mulf d d) (constant (F := F) S_ .f32 0x00000000#32) reducesTo_S256x1024x576_S256x1024_d2 h_S_))
    (broadcastInDim S256x1024x1 ![] bcast_S_S256x1024x1 corrT)
  select (broadcastInDim S256x1024x1 ![] bcast_S_S256x1024x1 (cmpf .ogt corrT (constant (F := F) S_ .f32 0x00000000#32))) q
    (broadcastInDim S256x1024x1 ![] bcast_S_S256x1024x1 (id (constant (F := F) S_ .f32 0x7FC00000#32)))

/-- Each column centred and divided by its deviation. -/
def normT (cols : FVec F S256x1024x576 .f32) : FVec F S256x1024x576 .f32 :=
  Host.divf
    (subf cols (broadcastInDim S256x1024x576 ![0, 1, 2] bcast_S256x1024x1_S256x1024x576_0_1_2 (meanT cols)))
    (broadcastInDim S256x1024x576 ![0, 1, 2] bcast_S256x1024x1_S256x1024x576_0_1_2 (Host.sqrt (varT cols)))

/-- The projection of the normalized columns, the channel axis moved in front of the positions, the positions
    unfolded into rows and columns. -/
def tailT (cols : FVec F S256x1024x576 .f32) (K : FVec F S576x64 .f32) : FVec F S256x64x32x32 .f32 :=
  shapeCast S256x64x32x32
    (transpose S256x64x1024 [0, 2, 1]
      (Host.dotGeneral dot_S256x1024x576_S576x64_S256x1024x64_2_0_01_1_n_n none (normT cols) K)
      transposes_S256x1024x64_S256x64x1024_0_2_1)
    shapeCasts_S256x64x1024_S256x64x32x32

/-- The reference's result. -/
def refT (x : FVec F S256x64x32x32 .f32) (K : FVec F S576x64 .f32) : FVec F S256x64x32x32 .f32 :=
  tailT (colsT (padT x)) K

end Cert.ReferenceIdeal.RefTerm

end
-- ==== Proof.KernelPad.lean ====
/-
  The padded array the region finds. Before the region the kernel's program reflect-pads its image argument by the same
  sixteen host operations as the reference does (one slice, one reversal and one concatenation per border, rows first,
  then columns): the array the image window stages is the reference's padding term of the argument.
-/
import proofs.«119388_j32538672234775_2_alg».proof.Proof.Gen.KernelIdeal.Frame
import proofs.«119388_j32538672234775_2_alg».proof.Proof.Gen.ReferenceIdeal
import proofs.«119388_j32538672234775_2_alg».proof.Proof.RefTerm
import Idealize.ShloMosaic.Lib.StableHlo.Run
import Idealize.ShloMosaic.PureOps.Ideal

noncomputable section

namespace Cert.KernelIdeal.Whole

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

theorem V_pad (c : Dev nD) :
    (V m c main_v0 : S256x64x34x34.Idx → EReal)
      = Cert.ReferenceIdeal.RefTerm.padT (F := Ideal) (m ((c : Thread nD τ).loc main_arg0)) := by
  dsimp only [V, V0]
  simp only [hostOps0, hostOps0_1, List.flatten_cons, List.flatten_nil, List.append_nil, List.cons_append, List.nil_append]
  after_results
  simp only [TRef.toBuf, TRef.ofBuf, cast_eq]
  rfl

end Cert.KernelIdeal.Whole

end
-- ==== Proof.KernelRun.lean ====
/-
  The kernel program's run, read: after the region the one host operation left unfolds the 1024 positions of the output
  array into 32 rows of 32 columns, so the program's result, entry `(b, o, h, w)`, is the output array's entry
  `(b, o, 32 h + w)`: the specification's function of the padded image array and the projection matrix.
-/
import proofs.«119388_j32538672234775_2_alg».proof.Proof.Gen.KernelIdeal.Frame
import proofs.«119388_j32538672234775_2_alg».proof.Proof.KernelArray
import proofs.«119388_j32538672234775_2_alg».proof.Proof.KernelPad
import Idealize.ShloMosaic.Lib.StableHlo.Run
import Idealize.ShloMosaic.Lib.Pipeline.FrameSuffix
import Idealize.ShloMosaic.Lib.Pipeline.Value
import Idealize.ShloMosaic.Lib.ValueLayout

noncomputable section

namespace Cert.KernelIdeal.Whole

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-- The positions unfolded: the reshaped output array is the specification's result. -/
theorem reshape_out (ap : S256x64x34x34.Idx → EReal) (K : S576x64.Idx → EReal) :
    shapeCast S256x64x32x32 (arrFn ap K) shapeCasts_S256x64x1024_S256x64x32x32 = Cert.PatchNorm.out ap K := by
  funext i
  obtain ⟨b, o, h, w, rfl⟩ : ∃ (b : Fin 256) (o : Fin 64) (h w : Fin 32), i = ix4 b o h w := ⟨i 0, i 1, i 2, i 3, eq_ix4 i⟩
  have hl : 32 * h.val + w.val < 1024 := by have := h.isLt; have := w.isLt; omega
  refine (shapeCast_apply (arrFn ap K) _ (ix4 b o h w) (ix3 b o (⟨32 * h.val + w.val, hl⟩ : Fin 1024)) ?_).trans ?_
  · rw [Shape.rowMajor_val_four, Shape.rowMajor_val_three]
    show (b.val * 64 + o.val) * 1024 + (32 * h.val + w.val) = ((b.val * 64 + o.val) * 32 + h.val) * 32 + w.val
    omega
  · rw [arrFn_ix3, Cert.PatchNorm.out_ix4]
    unfold arrAtIdx
    have hr : rowOf (⟨32 * h.val + w.val, hl⟩ : Fin 1024) = h := Fin.ext (by show (32 * h.val + w.val) / 32 = h.val; have := w.isLt; omega)
    have hc : colOf (⟨32 * h.val + w.val, hl⟩ : Fin 1024) = w := Fin.ext (by show (32 * h.val + w.val) % 32 = w.val; have := w.isLt; omega)
    rw [hr, hc]

/-- The host operation after the region applied to the array the region leaves. -/
theorem tail_eq (c : Dev nD) :
    Pipeline.afterTail₀ cfgs (dats m) 0 (V0 m) [hostOps1] c main_v2
      = shapeCast S256x64x32x32 ((dats m 0 c).arrAt 2 cfg0.N) shapeCasts_S256x64x1024_S256x64x32x32 := by
  unfold Pipeline.afterTail₀
  show StableHlo.after hostOps1 _ (Proc.devRef .tc main_v2) = _
  after_results
  have hA : Pipeline.withArrays (cfgs 0).spec c (V0 m c) (fun w => (dats m 0 c).arrAt w (cfgs 0).N) (Proc.devRef .tc main_v1)
      = (dats m 0 c).arrAt 2 cfg0.N :=
    Pipeline.withArrays_arr spec0 launch0.win.arr_inj c _ _ 2
  rw [hA]
  generalize (dats m 0 c).arrAt 2 cfg0.N = A
  rfl

/-- The program's result on core `c`: the specification's function of the padded image argument and the matrix
argument. -/
theorem result_eq (c : Dev nD) :
    Pipeline.afterTail₀ cfgs (dats m) 0 (V0 m) [hostOps1] c main_v2
      = Cert.PatchNorm.out (Cert.ReferenceIdeal.RefTerm.padT (F := Ideal) (m ((c.tc : Thread nD τ).loc main_arg0)))
          (m ((c.tc : Thread nD τ).loc main_arg1)) := by
  rw [tail_eq, final, reshape_out, V_pad, V_main_arg1]

/-- The run of the whole program: the result array is the specification's, the two arguments are as launched. -/
theorem run : θ_run (defs (F := Ideal)) (onTc (τ := τ) (main (F := Ideal))) ⟨m, fun _ => 0, ρ⟩ fun r => ∀ c : Dev nD,
      r.2.mem ((c.tc : Thread nD τ).loc main_v2) = Cert.PatchNorm.out (Cert.ReferenceIdeal.RefTerm.padT (F := Ideal) (m ((c.tc : Thread nD τ).loc main_arg0))) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v2 (Pipeline.mem_restRefs_of main_v2 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c)))⟩)
    (run_main m ρ)

end Cert.KernelIdeal.Whole

end
-- ==== Proof.RefOps.lean ====
/-
  The reference's `@main` as the list of its host operations, the calls written out at their sites, with the facts about
  the list that its run takes: every operation touches TensorCore references only, and the signature scopes nothing.
-/
import proofs.«119388_j32538672234775_2_alg».proof.Proof.Gen.ReferenceIdeal
import Idealize.ShloMosaic.Lib.StableHlo.Run

noncomputable section

namespace Cert.ReferenceIdeal.RefOps

open Idealize.ShloMosaic Idealize.ShloMosaic.TcCoe Idealize.SL.Sem Cert.ReferenceIdeal
open Idealize.ShloMosaic.StableHlo Cert.ReferenceIdeal.Facts₀

variable {F : FTy → Type} [FloatOps F]
/-- `@main`'s operations in order, the calls written out at their sites: the constant zero; the sixteen of the
    reflect-padding (four slices of which two are read, four reversals, four concatenations); the nine window slices, their
    nine unit-axis broadcasts, the stacking, the merge of channel and tap and the transposition to columns; the six of the
    column mean; the constant one; the twenty-four of the unbiased deviation (the mean again, the centred squares, their sum
    over the divisor 576 − 1, the guard on the divisor's sign with its three-operation selection, the square root); and the
    seven of the normalization, the projection and the return to the image layout. -/
abbrev ops : List (HloOp τ sig (Elt F)) :=
  (nullary main_c (constantI S_ 32 0#32)) ::
  (TRef.unary (.of main_arg0 : TRef sig ⟨S256x64x32x32, .f32⟩) main_call0.v0 (extractStridedSlice S256x64x1x32 ![0, 0, 0, 0] · slices_S256x64x32x32_S256x64x1x32_0_0_0_0)) ::
  (TRef.unary (.of main_arg0 : TRef sig ⟨S256x64x32x32, .f32⟩) main_call0.v1 (extractStridedSlice S256x64x1x32 ![0, 0, 1, 0] · slices_S256x64x32x32_S256x64x1x32_0_0_1_0)) ::
  (TRef.unary main_call0.v1 main_call0.call0.v0 (Host.reverse [2])) ::
  (TRef.binary main_call0.call0.v0 (.of main_arg0 : TRef sig ⟨S256x64x32x32, .f32⟩) main_call0.v3 (fun a b => concatenate S256x64x33x32 2 [⟨S256x64x1x32, a⟩, ⟨S256x64x32x32, b⟩] concatenates_S256x64x1x32_S256x64x32x32_S256x64x33x32_d2)) ::
  (TRef.unary main_call0.v3 main_call0.v4 (extractStridedSlice S256x64x1x32 ![0, 0, 32, 0] · slices_S256x64x33x32_S256x64x1x32_0_0_32_0)) ::
  (TRef.unary main_call0.v3 main_call0.v5 (extractStridedSlice S256x64x1x32 ![0, 0, 31, 0] · slices_S256x64x33x32_S256x64x1x32_0_0_31_0)) ::
  (TRef.unary main_call0.v5 main_call0.call1.v0 (Host.reverse [2])) ::
  (TRef.binary main_call0.v3 main_call0.call1.v0 main_call0.v7 (fun a b => concatenate S256x64x34x32 2 [⟨S256x64x33x32, a⟩, ⟨S256x64x1x32, b⟩] concatenates_S256x64x33x32_S256x64x1x32_S256x64x34x32_d2)) ::
  (TRef.unary main_call0.v7 main_call0.v8 (extractStridedSlice S256x64x34x1 ![0, 0, 0, 0] · slices_S256x64x34x32_S256x64x34x1_0_0_0_0)) ::
  (TRef.unary main_call0.v7 main_call0.v9 (extractStridedSlice S256x64x34x1 ![0, 0, 0, 1] · slices_S256x64x34x32_S256x64x34x1_0_0_0_1)) ::
  (TRef.unary main_call0.v9 main_call0.call2.v0 (Host.reverse [3])) ::
  (TRef.binary main_call0.call2.v0 main_call0.v7 main_call0.v11 (fun a b => concatenate S256x64x34x33 3 [⟨S256x64x34x1, a⟩, ⟨S256x64x34x32, b⟩] concatenates_S256x64x34x1_S256x64x34x32_S256x64x34x33_d3)) ::
  (TRef.unary main_call0.v11 main_call0.v12 (extractStridedSlice S256x64x34x1 ![0, 0, 0, 32] · slices_S256x64x34x33_S256x64x34x1_0_0_0_32)) ::
  (TRef.unary main_call0.v11 main_call0.v13 (extractStridedSlice S256x64x34x1 ![0, 0, 0, 31] · slices_S256x64x34x33_S256x64x34x1_0_0_0_31)) ::
  (TRef.unary main_call0.v13 main_call0.call3.v0 (Host.reverse [3])) ::
  (TRef.binary main_call0.v11 main_call0.call3.v0 main_call0.v15 (fun a b => concatenate S256x64x34x34 3 [⟨S256x64x34x33, a⟩, ⟨S256x64x34x1, b⟩] concatenates_S256x64x34x33_S256x64x34x1_S256x64x34x34_d3)) ::
  (unary main_v0 main_v1 ((extractStridedSlice S256x64x32x32 ![0, 0, 0, 0] · slices_S256x64x34x34_S256x64x32x32_0_0_0_0) : (⟨S256x64x34x34, .f32⟩ : BufTy).Contents (Elt F) → (⟨S256x64x32x32, .f32⟩ : BufTy).Contents (Elt F))) ::
  (unary main_v0 main_v2 ((extractStridedSlice S256x64x32x32 ![0, 0, 0, 1] · slices_S256x64x34x34_S256x64x32x32_0_0_0_1) : (⟨S256x64x34x34, .f32⟩ : BufTy).Contents (Elt F) → (⟨S256x64x32x32, .f32⟩ : BufTy).Contents (Elt F))) ::
  (unary main_v0 main_v3 ((extractStridedSlice S256x64x32x32 ![0, 0, 0, 2] · slices_S256x64x34x34_S256x64x32x32_0_0_0_2) : (⟨S256x64x34x34, .f32⟩ : BufTy).Contents (Elt F) → (⟨S256x64x32x32, .f32⟩ : BufTy).Contents (Elt F))) ::
  (unary main_v0 main_v4 ((extractStridedSlice S256x64x32x32 ![0, 0, 1, 0] · slices_S256x64x34x34_S256x64x32x32_0_0_1_0) : (⟨S256x64x34x34, .f32⟩ : BufTy).Contents (Elt F) → (⟨S256x64x32x32, .f32⟩ : BufTy).Contents (Elt F))) ::
  (unary main_v0 main_v5 ((extractStridedSlice S256x64x32x32 ![0, 0, 1, 1] · slices_S256x64x34x34_S256x64x32x32_0_0_1_1) : (⟨S256x64x34x34, .f32⟩ : BufTy).Contents (Elt F) → (⟨S256x64x32x32, .f32⟩ : BufTy).Contents (Elt F))) ::
  (unary main_v0 main_v6 ((extractStridedSlice S256x64x32x32 ![0, 0, 1, 2] · slices_S256x64x34x34_S256x64x32x32_0_0_1_2) : (⟨S256x64x34x34, .f32⟩ : BufTy).Contents (Elt F) → (⟨S256x64x32x32, .f32⟩ : BufTy).Contents (Elt F))) ::
  (unary main_v0 main_v7 ((extractStridedSlice S256x64x32x32 ![0, 0, 2, 0] · slices_S256x64x34x34_S256x64x32x32_0_0_2_0) : (⟨S256x64x34x34, .f32⟩ : BufTy).Contents (Elt F) → (⟨S256x64x32x32, .f32⟩ : BufTy).Contents (Elt F))) ::
  (unary main_v0 main_v8 ((extractStridedSlice S256x64x32x32 ![0, 0, 2, 1] · slices_S256x64x34x34_S256x64x32x32_0_0_2_1) : (⟨S256x64x34x34, .f32⟩ : BufTy).Contents (Elt F) → (⟨S256x64x32x32, .f32⟩ : BufTy).Contents (Elt F))) ::
  (unary main_v0 main_v9 ((extractStridedSlice S256x64x32x32 ![0, 0, 2, 2] · slices_S256x64x34x34_S256x64x32x32_0_0_2_2) : (⟨S256x64x34x34, .f32⟩ : BufTy).Contents (Elt F) → (⟨S256x64x32x32, .f32⟩ : BufTy).Contents (Elt F))) ::
  (unary main_v1 main_v10 (broadcastInDim S256x64x1x32x32 ![0, 1, 3, 4] bcast_S256x64x32x32_S256x64x1x32x32_0_1_3_4 : (⟨S256x64x32x32, .f32⟩ : BufTy).Contents (Elt F) → (⟨S256x64x1x32x32, .f32⟩ : BufTy).Contents (Elt F))) ::
  (unary main_v2 main_v11 (broadcastInDim S256x64x1x32x32 ![0, 1, 3, 4] bcast_S256x64x32x32_S256x64x1x32x32_0_1_3_4 : (⟨S256x64x32x32, .f32⟩ : BufTy).Contents (Elt F) → (⟨S256x64x1x32x32, .f32⟩ : BufTy).Contents (Elt F))) ::
  (unary main_v3 main_v12 (broadcastInDim S256x64x1x32x32 ![0, 1, 3, 4] bcast_S256x64x32x32_S256x64x1x32x32_0_1_3_4 : (⟨S256x64x32x32, .f32⟩ : BufTy).Contents (Elt F) → (⟨S256x64x1x32x32, .f32⟩ : BufTy).Contents (Elt F))) ::
  (unary main_v4 main_v13 (broadcastInDim S256x64x1x32x32 ![0, 1, 3, 4] bcast_S256x64x32x32_S256x64x1x32x32_0_1_3_4 : (⟨S256x64x32x32, .f32⟩ : BufTy).Contents (Elt F) → (⟨S256x64x1x32x32, .f32⟩ : BufTy).Contents (Elt F))) ::
  (unary main_v5 main_v14 (broadcastInDim S256x64x1x32x32 ![0, 1, 3, 4] bcast_S256x64x32x32_S256x64x1x32x32_0_1_3_4 : (⟨S256x64x32x32, .f32⟩ : BufTy).Contents (Elt F) → (⟨S256x64x1x32x32, .f32⟩ : BufTy).Contents (Elt F))) ::
  (unary main_v6 main_v15 (broadcastInDim S256x64x1x32x32 ![0, 1, 3, 4] bcast_S256x64x32x32_S256x64x1x32x32_0_1_3_4 : (⟨S256x64x32x32, .f32⟩ : BufTy).Contents (Elt F) → (⟨S256x64x1x32x32, .f32⟩ : BufTy).Contents (Elt F))) ::
  (unary main_v7 main_v16 (broadcastInDim S256x64x1x32x32 ![0, 1, 3, 4] bcast_S256x64x32x32_S256x64x1x32x32_0_1_3_4 : (⟨S256x64x32x32, .f32⟩ : BufTy).Contents (Elt F) → (⟨S256x64x1x32x32, .f32⟩ : BufTy).Contents (Elt F))) ::
  (unary main_v8 main_v17 (broadcastInDim S256x64x1x32x32 ![0, 1, 3, 4] bcast_S256x64x32x32_S256x64x1x32x32_0_1_3_4 : (⟨S256x64x32x32, .f32⟩ : BufTy).Contents (Elt F) → (⟨S256x64x1x32x32, .f32⟩ : BufTy).Contents (Elt F))) ::
  (unary main_v9 main_v18 (broadcastInDim S256x64x1x32x32 ![0, 1, 3, 4] bcast_S256x64x32x32_S256x64x1x32x32_0_1_3_4 : (⟨S256x64x32x32, .f32⟩ : BufTy).Contents (Elt F) → (⟨S256x64x1x32x32, .f32⟩ : BufTy).Contents (Elt F))) ::
  (nary ![main_v10, main_v11, main_v12, main_v13, main_v14, main_v15, main_v16, main_v17, main_v18] main_v19 (fun u => concatenate S256x64x9x32x32 2 [⟨S256x64x1x32x32, u 0⟩, ⟨S256x64x1x32x32, u 1⟩, ⟨S256x64x1x32x32, u 2⟩, ⟨S256x64x1x32x32, u 3⟩, ⟨S256x64x1x32x32, u 4⟩, ⟨S256x64x1x32x32, u 5⟩, ⟨S256x64x1x32x32, u 6⟩, ⟨S256x64x1x32x32, u 7⟩, ⟨S256x64x1x32x32, u 8⟩] concatenates_S256x64x1x32x32_S256x64x1x32x32_S256x64x1x32x32_S256x64x1x32x32_S256x64x1x32x32_S256x64x1x32x32_S256x64x1x32x32_S256x64x1x32x32_S256x64x1x32x32_S256x64x9x32x32_d2)) ::
  (reshape main_v19 main_v20 rfl shapeCasts_S256x64x9x32x32_S256x576x1024) ::
  (unary main_v20 main_v21 ((transpose S256x1024x576 [0, 2, 1] · transposes_S256x576x1024_S256x1024x576_0_2_1) : (⟨S256x576x1024, .f32⟩ : BufTy).Contents (Elt F) → (⟨S256x1024x576, .f32⟩ : BufTy).Contents (Elt F))) ::
  (nullary main_cst (constant S_ .f32 0x00000000#32)) ::
  (binary main_v21 main_cst main_v22 ((fun x v => Host.reduceAdd x v reducesTo_S256x1024x576_S256x1024_d2 h_S_) : (⟨S256x1024x576, .f32⟩ : BufTy).Contents (Elt F) → (⟨S_, .f32⟩ : BufTy).Contents (Elt F) → (⟨S256x1024, .f32⟩ : BufTy).Contents (Elt F))) ::
  (unary main_v22 main_v23 (broadcastInDim S256x1024x1 ![0, 1] bcast_S256x1024_S256x1024x1_0_1 : (⟨S256x1024, .f32⟩ : BufTy).Contents (Elt F) → (⟨S256x1024x1, .f32⟩ : BufTy).Contents (Elt F))) ::
  (nullary main_cst_0 (constant S_ .f32 0x44100000#32)) ::
  (unary main_cst_0 main_v24 (broadcastInDim S256x1024x1 ![] bcast_S_S256x1024x1 : (⟨S_, .f32⟩ : BufTy).Contents (Elt F) → (⟨S256x1024x1, .f32⟩ : BufTy).Contents (Elt F))) ::
  (binary main_v23 main_v24 main_v25 (Host.divf : (⟨S256x1024x1, .f32⟩ : BufTy).Contents (Elt F) → (⟨S256x1024x1, .f32⟩ : BufTy).Contents (Elt F) → (⟨S256x1024x1, .f32⟩ : BufTy).Contents (Elt F))) ::
  (nullary main_c_1 (constantI S_ 32 1#32)) ::
  (TRef.nullary main_call1.call0.cst (constant S_ .f32 0x00000000#32)) ::
  (TRef.binary (.of main_v21 : TRef sig ⟨S256x1024x576, .f32⟩) main_call1.call0.cst main_call1.call0.v0 (fun x v => Host.reduceAdd x v reducesTo_S256x1024x576_S256x1024_d2 h_S_)) ::
  (TRef.unary main_call1.call0.v0 main_call1.call0.v1 (broadcastInDim S256x1024x1 ![0, 1] bcast_S256x1024_S256x1024x1_0_1)) ::
  (TRef.nullary main_call1.call0.cst_0 (constant S_ .f32 0x44100000#32)) ::
  (TRef.unary main_call1.call0.cst_0 main_call1.call0.v2 (broadcastInDim S256x1024x1 ![] bcast_S_S256x1024x1)) ::
  (TRef.binary main_call1.call0.v1 main_call1.call0.v2 main_call1.call0.v3 Host.divf) ::
  (TRef.unary main_call1.call0.v3 main_call1.call0.v4 (broadcastInDim S256x1024x576 ![0, 1, 2] bcast_S256x1024x1_S256x1024x576_0_1_2)) ::
  (TRef.binary (.of main_v21 : TRef sig ⟨S256x1024x576, .f32⟩) main_call1.call0.v4 main_call1.call0.v5 subf) ::
  (TRef.binary main_call1.call0.v5 main_call1.call0.v5 main_call1.call0.v6 mulf) ::
  (TRef.unary (.of main_c_1 : TRef sig ⟨S_, .i32⟩) main_call1.call0.v7 (sitofp .f32)) ::
  (TRef.nullary main_call1.call0.cst_1 (constant S_ .f32 0x44100000#32)) ::
  (TRef.binary main_call1.call0.cst_1 main_call1.call0.v7 main_call1.call0.v8 subf) ::
  (TRef.nullary main_call1.call0.cst_2 (constant S_ .f32 0x00000000#32)) ::
  (TRef.binary main_call1.call0.v6 main_call1.call0.cst_2 main_call1.call0.v9 (fun x v => Host.reduceAdd x v reducesTo_S256x1024x576_S256x1024_d2 h_S_)) ::
  (TRef.unary main_call1.call0.v9 main_call1.call0.v10 (broadcastInDim S256x1024x1 ![0, 1] bcast_S256x1024_S256x1024x1_0_1)) ::
  (TRef.unary main_call1.call0.v8 main_call1.call0.v11 (broadcastInDim S256x1024x1 ![] bcast_S_S256x1024x1)) ::
  (TRef.binary main_call1.call0.v10 main_call1.call0.v11 main_call1.call0.v12 Host.divf) ::
  (TRef.nullary main_call1.call0.cst_3 (constant S_ .f32 0x00000000#32)) ::
  (TRef.binary main_call1.call0.v8 main_call1.call0.cst_3 main_call1.call0.v13 (cmpf .ogt)) ::
  (TRef.nullary main_call1.call0.cst_4 (constant S_ .f32 0x7FC00000#32)) ::
  (TRef.unary main_call1.call0.cst_4 main_call1.call0.call0.v0 id) ::
  (TRef.unary main_call1.call0.call0.v0 main_call1.call0.call0.v1 (broadcastInDim S256x1024x1 ![] bcast_S_S256x1024x1)) ::
  (TRef.ternary main_call1.call0.v13 main_call1.call0.v12 main_call1.call0.call0.v1 main_call1.call0.call0.v2 (fun p a b => select (broadcastInDim S256x1024x1 ![] bcast_S_S256x1024x1 p) a b)) ::
  (TRef.unary main_call1.call0.call0.v2 main_call1.v1 Host.sqrt) ::
  (unary main_v25 main_v27 (broadcastInDim S256x1024x576 ![0, 1, 2] bcast_S256x1024x1_S256x1024x576_0_1_2 : (⟨S256x1024x1, .f32⟩ : BufTy).Contents (Elt F) → (⟨S256x1024x576, .f32⟩ : BufTy).Contents (Elt F))) ::
  (binary main_v21 main_v27 main_v28 (subf : (⟨S256x1024x576, .f32⟩ : BufTy).Contents (Elt F) → (⟨S256x1024x576, .f32⟩ : BufTy).Contents (Elt F) → (⟨S256x1024x576, .f32⟩ : BufTy).Contents (Elt F))) ::
  (unary main_v26 main_v29 (broadcastInDim S256x1024x576 ![0, 1, 2] bcast_S256x1024x1_S256x1024x576_0_1_2 : (⟨S256x1024x1, .f32⟩ : BufTy).Contents (Elt F) → (⟨S256x1024x576, .f32⟩ : BufTy).Contents (Elt F))) ::
  (binary main_v28 main_v29 main_v30 (Host.divf : (⟨S256x1024x576, .f32⟩ : BufTy).Contents (Elt F) → (⟨S256x1024x576, .f32⟩ : BufTy).Contents (Elt F) → (⟨S256x1024x576, .f32⟩ : BufTy).Contents (Elt F))) ::
  (binary main_v30 main_arg1 main_v31 ((fun l r => Host.dotGeneral dot_S256x1024x576_S576x64_S256x1024x64_2_0_01_1_n_n none l r) : (⟨S256x1024x576, .f32⟩ : BufTy).Contents (Elt F) → (⟨S576x64, .f32⟩ : BufTy).Contents (Elt F) → (⟨S256x1024x64, .f32⟩ : BufTy).Contents (Elt F))) ::
  (unary main_v31 main_v32 ((transpose S256x64x1024 [0, 2, 1] · transposes_S256x1024x64_S256x64x1024_0_2_1) : (⟨S256x1024x64, .f32⟩ : BufTy).Contents (Elt F) → (⟨S256x64x1024, .f32⟩ : BufTy).Contents (Elt F))) ::
  (reshape main_v32 main_v33 rfl shapeCasts_S256x64x1024_S256x64x32x32) :: []

theorem scopedRefs_eq : (Finset.univ.filter fun b : Ref sig .tc => b.isScoped) = ∅ := by decide
theorem scopedSems_eq : (Finset.univ.filter fun sm : SemLoc sig => sm.isScoped .tc) = ∅ := by decide

/-- Every operation of the list touches TensorCore references only. -/
theorem ops_sub : (ops : List (HloOp τ sig (Elt F))).Forall fun op => op.bufs ⊆ tcRefs τ sig :=
  ⟨nullary_bufs_sub .., unary_bufs_sub .., unary_bufs_sub .., unary_bufs_sub .., binary_bufs_sub .., unary_bufs_sub .., unary_bufs_sub .., unary_bufs_sub .., binary_bufs_sub .., unary_bufs_sub .., unary_bufs_sub .., unary_bufs_sub .., binary_bufs_sub .., unary_bufs_sub .., unary_bufs_sub .., unary_bufs_sub .., binary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., nary_bufs_sub .., reshape_bufs_sub .., unary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., binary_bufs_sub .., binary_bufs_sub .., unary_bufs_sub .., reshape_bufs_sub ..⟩

end Cert.ReferenceIdeal.RefOps

end
-- ==== Proof.RefOut.lean ====
/-
  The value half of the reference's run: after the operations of `@main`, in order, from any contents of the buffers,
  the result buffer holds the term `RefTerm.refT` of the two argument buffers' contents.
-/
import proofs.«119388_j32538672234775_2_alg».proof.Proof.RefOps
import proofs.«119388_j32538672234775_2_alg».proof.Proof.RefTerm
import Idealize.ShloMosaic.Lib.StableHlo.Run

noncomputable section

namespace Cert.ReferenceIdeal.RefOut

open Idealize.ShloMosaic Idealize.ShloMosaic.TcCoe Idealize.ShloMosaic.StableHlo Cert.ReferenceIdeal

section Nine

variable {τ' : Topo} {sig' : RefSig} {Val : EltTy → Type} {x0 x1 x2 x3 x4 x5 x6 x7 x8 y : Ref sig' .tc}

/-- An operation over a LITERAL family of nine operands leaves, at its result, its function of the nine operands'
    contents, each read at its own reference. -/
theorem nary9_result
    (f : ((k : Fin 9) → ((![x0, x1, x2, x3, x4, x5, x6, x7, x8] : Fin 9 → Ref sig' .tc) k).ty.Contents Val) → y.ty.Contents Val) (hxs hy)
    (G : Valuation τ' sig' Val) :
    (nary (τ := τ') ![x0, x1, x2, x3, x4, x5, x6, x7, x8] y f hxs hy).result G (Proc.devRef .tc y)
      = f (Fin.cons (G (Proc.devRef .tc x0)) (Fin.cons (G (Proc.devRef .tc x1)) (Fin.cons (G (Proc.devRef .tc x2))
          (Fin.cons (G (Proc.devRef .tc x3)) (Fin.cons (G (Proc.devRef .tc x4)) (Fin.cons (G (Proc.devRef .tc x5))
          (Fin.cons (G (Proc.devRef .tc x6)) (Fin.cons (G (Proc.devRef .tc x7)) (Fin.cons (G (Proc.devRef .tc x8))
          (fun i => i.elim0)))))))))) := by
  rw [nary_result]; congr 1; funext k; fin_cases k <;> rfl

/-- The same with the result reference left out of the index, for rewriting by simplification. -/
theorem nary9_result'
    (f : ((k : Fin 9) → ((![x0, x1, x2, x3, x4, x5, x6, x7, x8] : Fin 9 → Ref sig' .tc) k).ty.Contents Val) → y.ty.Contents Val) (hxs hy)
    (G : Valuation τ' sig' Val) :
    (nary (τ := τ') ![x0, x1, x2, x3, x4, x5, x6, x7, x8] y f hxs hy).result G (no_index (Proc.devRef .tc y))
      = f (Fin.cons (G (Proc.devRef .tc x0)) (Fin.cons (G (Proc.devRef .tc x1)) (Fin.cons (G (Proc.devRef .tc x2))
          (Fin.cons (G (Proc.devRef .tc x3)) (Fin.cons (G (Proc.devRef .tc x4)) (Fin.cons (G (Proc.devRef .tc x5))
          (Fin.cons (G (Proc.devRef .tc x6)) (Fin.cons (G (Proc.devRef .tc x7)) (Fin.cons (G (Proc.devRef .tc x8))
          (fun i => i.elim0)))))))))) :=
  nary9_result f hxs hy G

end Nine

variable {F : FTy → Type} [FloatOps F]

/-- Two lines of operations run one after the other are their concatenation run as one. -/
theorem after_append {τ' : Topo} {sig' : RefSig} {Val : EltTy → Type} (l₁ l₂ : List (HloOp τ' sig' Val)) (V : Valuation τ' sig' Val) :
    after (l₁ ++ l₂) V = after l₂ (after l₁ V) := by
  induction l₁ generalizing V with
  | nil => rfl
  | cons op l ih => exact ih (op.result V)

/-- The first seventeen operations leave the reflect-padded array in its buffer. -/
theorem pad_stage (V : Valuation τ sig (Elt F)) :
    after ((RefOps.ops (F := F)).take 17) V (main_v0 : DevRef τ sig) = RefTerm.padT (V (main_arg0 : DevRef τ sig)) := by
  dsimp only [RefOps.ops, List.take]
  after_results
  simp only [TRef.toBuf, TRef.ofBuf, cast_eq]
  rfl

/-- They do not write the projection matrix's buffer. -/
theorem pad_stage_arg1 (V : Valuation τ sig (Elt F)) :
    after ((RefOps.ops (F := F)).take 17) V (main_arg1 : DevRef τ sig) = V (main_arg1 : DevRef τ sig) := by
  dsimp only [RefOps.ops, List.take]
  simp (disch := decide) only [after_cons, after_nil, nullary_result_ne', unary_result_ne', binary_result_ne']

/-- The next twenty-one operations leave the patch columns of the padded array in their buffer. -/
theorem cols_stage (W : Valuation τ sig (Elt F)) :
    after (((RefOps.ops (F := F)).drop 17).take 21) W (main_v21 : DevRef τ sig) = RefTerm.colsT (W (main_v0 : DevRef τ sig)) := by
  dsimp only [RefOps.ops, List.drop, List.take]
  simp (disch := decide) only [after_cons, after_nil, unary_result', reshape_result', nary9_result',
    unary_result_ne', reshape_result_ne', nary_result_ne']
  rfl

/-- They do not write the projection matrix's buffer either. -/
theorem cols_stage_arg1 (W : Valuation τ sig (Elt F)) :
    after (((RefOps.ops (F := F)).drop 17).take 21) W (main_arg1 : DevRef τ sig) = W (main_arg1 : DevRef τ sig) := by
  dsimp only [RefOps.ops, List.drop, List.take]
  simp (disch := decide) only [after_cons, after_nil, unary_result_ne', reshape_result_ne', nary_result_ne']

/-- The remaining operations leave, in the result buffer, the normalization and projection of the columns. -/
theorem tail_stage (W : Valuation τ sig (Elt F)) :
    after ((RefOps.ops (F := F)).drop 38) W (main_v33 : DevRef τ sig)
      = RefTerm.tailT (W (main_v21 : DevRef τ sig)) (W (main_arg1 : DevRef τ sig)) := by
  dsimp only [RefOps.ops, List.drop]
  simp (disch := decide) only [after_cons, after_nil,
    nullary_result', unary_result', binary_result', ternary_result', quaternary_result', reshape_result', nary_result',
    nullary_result_ne', unary_result_ne', binary_result_ne', ternary_result_ne', quaternary_result_ne', reshape_result_ne',
    nary_result_ne']
  simp only [TRef.toBuf, TRef.ofBuf, cast_eq]
  rfl

/-- The list of operations is its three segments in order. -/
theorem ops_split : (RefOps.ops (F := F))
    = (RefOps.ops (F := F)).take 17 ++ (((RefOps.ops (F := F)).drop 17).take 21 ++ (RefOps.ops (F := F)).drop 38) := rfl

/-- After the reference's operations the result buffer holds the reference's term of the two arguments. -/
theorem out_eq (V : Valuation τ sig (Elt F)) :
    after (RefOps.ops (F := F)) V (main_v33 : DevRef τ sig) = RefTerm.refT (V (main_arg0 : DevRef τ sig)) (V (main_arg1 : DevRef τ sig)) := by
  rw [ops_split, after_append, after_append, tail_stage, cols_stage, cols_stage_arg1, pad_stage, pad_stage_arg1]
  rfl

end Cert.ReferenceIdeal.RefOut

end
-- ==== Proof.RefRun.lean ====
/-
  The reference's run: every weakly fair execution of its `@main` terminates with the result buffer at the term
  `RefTerm.refT` of the two argument arrays, which end unchanged.
-/
import proofs.«119388_j32538672234775_2_alg».proof.Proof.Gen.ReferenceIdeal
import proofs.«119388_j32538672234775_2_alg».proof.Proof.RefTerm
import proofs.«119388_j32538672234775_2_alg».proof.Proof.RefOps
import proofs.«119388_j32538672234775_2_alg».proof.Proof.RefOut
import Idealize.ShloMosaic.Lib.StableHlo.Run
import Idealize.ShloMosaic.PureOps.Ideal

noncomputable section

namespace Cert.ReferenceIdeal.RefRun

open Idealize.ShloMosaic Idealize.ShloMosaic.TcCoe Idealize.SL.Sem Cert.ReferenceIdeal
open Idealize.ShloMosaic.StableHlo Cert.ReferenceIdeal.RefOps

section
variable {F : FTy → Type} [FloatOps F]

-- seventy-six binds re-associated, six function bodies opened at their nine call sites
set_option maxRecDepth 8192 in
set_option maxHeartbeats 4000000 in
/-- `@main` is the straight line of `RefOps.ops`: the functions' bodies unfolded at their calls (the padding's, with its
    four reversals; the deviation's, with the variance's and the selection's inside it), both sides are one chain of
    operation steps once sequencing is reassociated. -/
theorem main_eq (c : Dev nD) : main (F := F) c = seq ops := by
  simp only [main, fn_pad.body, fn_flip.body, fn_flip_0.body, fn_std.body, fn_var.body, fn_where.body, seq, bind_assoc, pure_bind]

set_option maxRecDepth 8192 in
/-- No operation writes the image array: it ends as launched. -/
theorem arg0_eq (V : Valuation τ sig (Elt F)) :
    after ops V (main_arg0 : DevRef τ sig) = V (main_arg0 : DevRef τ sig) := by
  after_results_simp

set_option maxRecDepth 8192 in
/-- No operation writes the projection matrix: it ends as launched. -/
theorem arg1_eq (V : Valuation τ sig (Elt F)) :
    after ops V (main_arg1 : DevRef τ sig) = V (main_arg1 : DevRef τ sig) := by
  after_results_simp

end

theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v33)
          = RefTerm.refT (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c main_v33).trans (RefOut.out_eq (launchContents m c)),
      (h c main_arg0).trans (arg0_eq (launchContents m c)),
      (h c main_arg1).trans (arg1_eq (launchContents m c))⟩)
    (run_seq scopedRefs_eq scopedSems_eq defs main (fun _ => ops) main_eq (fun _ => ops_sub) m ρ)

end Cert.ReferenceIdeal.RefRun

end
-- ==== Proof.RefValue.lean ====
/-
  The reference's term read at an index: its patch columns are the specification's columns of the padded array, and
  each result entry is the specification's entry of one column against one column of the projection matrix.
-/
import proofs.«119388_j32538672234775_2_alg».proof.Proof.Gen.ReferenceIdeal
import proofs.«119388_j32538672234775_2_alg».proof.Proof.RefTerm
import proofs.«119388_j32538672234775_2_alg».proof.Proof.PatchNorm
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

namespace Cert.ReferenceIdeal.RefValue

open Idealize.ShloMosaic Idealize.ShloMosaic.ValueIdx Cert.ReferenceIdeal

open Cert.ReferenceIdeal.Facts₀

/-! ## The patch columns -/

/-- One shifted window, its unit axis included, read at an index: the padded array moved by the window's offsets. -/
theorem window_apply (kh kw : ℕ) (hs : S256x64x34x34.Slices ![0, 0, kh, kw] S256x64x32x32)
    (hb : S256x64x32x32.BroadcastsInDim S256x64x1x32x32 (![0, 1, 3, 4] : Fin 4 → Fin S256x64x1x32x32.rank))
    (ap : FVec Ideal S256x64x34x34 .f32) (b : Fin 256) (c : Fin 64) (u : Fin 1) (h w : Fin 32) (r q : Fin 34)
    (hr : r.val = h.val + kh) (hq : q.val = w.val + kw) :
    broadcastInDim S256x64x1x32x32 ![0, 1, 3, 4] hb (extractStridedSlice S256x64x32x32 ![0, 0, kh, kw] ap hs) (ix5 b c u h w)
      = ap (ix4 b c r q) := by
  refine (broadcastInDim_apply _ hb _ (ix5 b c u h w) (ix4 b c h w) fun a => ?_).trans ?_
  · match a with
    | ⟨0, _⟩ => rfl
    | ⟨1, _⟩ => rfl
    | ⟨2, _⟩ => rfl
    | ⟨3, _⟩ => rfl
  · refine extractStridedSlice_apply _ ap hs (ix4 b c h w) (ix4 b c r q) fun a => ?_
    match a with
    | ⟨0, _⟩ => show b.val = 0 + b.val; omega
    | ⟨1, _⟩ => show c.val = 0 + c.val; omega
    | ⟨2, _⟩ => show r.val = kh + h.val; omega
    | ⟨3, _⟩ => show q.val = kw + w.val; omega

/-- The nine windows as a function of the tap number `k = 3 kh + kw`. -/
def win (ap : FVec Ideal S256x64x34x34 .f32) : Fin 9 → FVec Ideal S256x64x1x32x32 .f32
  | ⟨0, _⟩ => broadcastInDim S256x64x1x32x32 ![0, 1, 3, 4] bcast_S256x64x32x32_S256x64x1x32x32_0_1_3_4 (extractStridedSlice S256x64x32x32 ![0, 0, 0, 0] ap slices_S256x64x34x34_S256x64x32x32_0_0_0_0)
  | ⟨1, _⟩ => broadcastInDim S256x64x1x32x32 ![0, 1, 3, 4] bcast_S256x64x32x32_S256x64x1x32x32_0_1_3_4 (extractStridedSlice S256x64x32x32 ![0, 0, 0, 1] ap slices_S256x64x34x34_S256x64x32x32_0_0_0_1)
  | ⟨2, _⟩ => broadcastInDim S256x64x1x32x32 ![0, 1, 3, 4] bcast_S256x64x32x32_S256x64x1x32x32_0_1_3_4 (extractStridedSlice S256x64x32x32 ![0, 0, 0, 2] ap slices_S256x64x34x34_S256x64x32x32_0_0_0_2)
  | ⟨3, _⟩ => broadcastInDim S256x64x1x32x32 ![0, 1, 3, 4] bcast_S256x64x32x32_S256x64x1x32x32_0_1_3_4 (extractStridedSlice S256x64x32x32 ![0, 0, 1, 0] ap slices_S256x64x34x34_S256x64x32x32_0_0_1_0)
  | ⟨4, _⟩ => broadcastInDim S256x64x1x32x32 ![0, 1, 3, 4] bcast_S256x64x32x32_S256x64x1x32x32_0_1_3_4 (extractStridedSlice S256x64x32x32 ![0, 0, 1, 1] ap slices_S256x64x34x34_S256x64x32x32_0_0_1_1)
  | ⟨5, _⟩ => broadcastInDim S256x64x1x32x32 ![0, 1, 3, 4] bcast_S256x64x32x32_S256x64x1x32x32_0_1_3_4 (extractStridedSlice S256x64x32x32 ![0, 0, 1, 2] ap slices_S256x64x34x34_S256x64x32x32_0_0_1_2)
  | ⟨6, _⟩ => broadcastInDim S256x64x1x32x32 ![0, 1, 3, 4] bcast_S256x64x32x32_S256x64x1x32x32_0_1_3_4 (extractStridedSlice S256x64x32x32 ![0, 0, 2, 0] ap slices_S256x64x34x34_S256x64x32x32_0_0_2_0)
  | ⟨7, _⟩ => broadcastInDim S256x64x1x32x32 ![0, 1, 3, 4] bcast_S256x64x32x32_S256x64x1x32x32_0_1_3_4 (extractStridedSlice S256x64x32x32 ![0, 0, 2, 1] ap slices_S256x64x34x34_S256x64x32x32_0_0_2_1)
  | ⟨8, _⟩ => broadcastInDim S256x64x1x32x32 ![0, 1, 3, 4] bcast_S256x64x32x32_S256x64x1x32x32_0_1_3_4 (extractStridedSlice S256x64x32x32 ![0, 0, 2, 2] ap slices_S256x64x34x34_S256x64x32x32_0_0_2_2)

/-- Window `k` at `(b, c, ·, h, w)` is the padded array at `(b, c, h + k / 3, w + k % 3)`. -/
theorem win_apply (ap : FVec Ideal S256x64x34x34 .f32) (k : Fin 9) (b : Fin 256) (c : Fin 64) (u : Fin 1) (h w : Fin 32)
    (r q : Fin 34) (hr : r.val = h.val + k.val / 3) (hq : q.val = w.val + k.val % 3) :
    win ap k (ix5 b c u h w) = ap (ix4 b c r q) := by
  match k with
  | ⟨0, _⟩ => exact window_apply 0 0 slices_S256x64x34x34_S256x64x32x32_0_0_0_0 bcast_S256x64x32x32_S256x64x1x32x32_0_1_3_4 ap b c u h w r q (by simpa using hr) (by simpa using hq)
  | ⟨1, _⟩ => exact window_apply 0 1 slices_S256x64x34x34_S256x64x32x32_0_0_0_1 bcast_S256x64x32x32_S256x64x1x32x32_0_1_3_4 ap b c u h w r q (by simpa using hr) (by simpa using hq)
  | ⟨2, _⟩ => exact window_apply 0 2 slices_S256x64x34x34_S256x64x32x32_0_0_0_2 bcast_S256x64x32x32_S256x64x1x32x32_0_1_3_4 ap b c u h w r q (by simpa using hr) (by simpa using hq)
  | ⟨3, _⟩ => exact window_apply 1 0 slices_S256x64x34x34_S256x64x32x32_0_0_1_0 bcast_S256x64x32x32_S256x64x1x32x32_0_1_3_4 ap b c u h w r q (by simpa using hr) (by simpa using hq)
  | ⟨4, _⟩ => exact window_apply 1 1 slices_S256x64x34x34_S256x64x32x32_0_0_1_1 bcast_S256x64x32x32_S256x64x1x32x32_0_1_3_4 ap b c u h w r q (by simpa using hr) (by simpa using hq)
  | ⟨5, _⟩ => exact window_apply 1 2 slices_S256x64x34x34_S256x64x32x32_0_0_1_2 bcast_S256x64x32x32_S256x64x1x32x32_0_1_3_4 ap b c u h w r q (by simpa using hr) (by simpa using hq)
  | ⟨6, _⟩ => exact window_apply 2 0 slices_S256x64x34x34_S256x64x32x32_0_0_2_0 bcast_S256x64x32x32_S256x64x1x32x32_0_1_3_4 ap b c u h w r q (by simpa using hr) (by simpa using hq)
  | ⟨7, _⟩ => exact window_apply 2 1 slices_S256x64x34x34_S256x64x32x32_0_0_2_1 bcast_S256x64x32x32_S256x64x1x32x32_0_1_3_4 ap b c u h w r q (by simpa using hr) (by simpa using hq)
  | ⟨8, _⟩ => exact window_apply 2 2 slices_S256x64x34x34_S256x64x32x32_0_0_2_2 bcast_S256x64x32x32_S256x64x1x32x32_0_1_3_4 ap b c u h w r q (by simpa using hr) (by simpa using hq)

/-- The stack of the nine windows, its list of pieces written as a function of the tap. -/
theorem stackT_eq (ap : FVec Ideal S256x64x34x34 .f32) :
    RefTerm.stackT (F := Ideal) ap
      = concatenate S256x64x9x32x32 2 (List.ofFn fun n : Fin 9 => (⟨S256x64x1x32x32, win ap n⟩ : (s : Shape) × (s.Idx → EReal)))
          concatenates_S256x64x1x32x32_S256x64x1x32x32_S256x64x1x32x32_S256x64x1x32x32_S256x64x1x32x32_S256x64x1x32x32_S256x64x1x32x32_S256x64x1x32x32_S256x64x1x32x32_S256x64x9x32x32_d2 :=
  rfl

/-- The stack at `(b, c, k, h, w)`. -/
theorem stackT_apply (ap : FVec Ideal S256x64x34x34 .f32) (b : Fin 256) (c : Fin 64) (k : Fin 9) (h w : Fin 32)
    (r q : Fin 34) (hr : r.val = h.val + k.val / 3) (hq : q.val = w.val + k.val % 3) :
    RefTerm.stackT (F := Ideal) ap (ix5 b c k h w) = ap (ix4 b c r q) := by
  rw [stackT_eq]
  refine (concatenate_ofFn_unit_apply (t := S256x64x9x32x32) (2 : Fin 5) (win ap) _ rfl rfl (ix5 b c k h w) k rfl (ix5 b c (0 : Fin 1) h w) fun a ha => ?_).trans
    (win_apply ap k b c 0 h w r q hr hq)
  match a with
  | ⟨0, _⟩ => rfl
  | ⟨1, _⟩ => rfl
  | ⟨2, _⟩ => exact absurd rfl ha
  | ⟨3, _⟩ => rfl
  | ⟨4, _⟩ => rfl

/-- Column `(b, 32 h + w)` of the stacked, merged and transposed windows is the patch column at `(b, h, w)`. -/
theorem colsT_apply (ap : FVec Ideal S256x64x34x34 .f32) (b : Fin 256) (h w : Fin 32) (p : Fin 576) :
    RefTerm.colsT (F := Ideal) ap (ix3 b (⟨32 * h.val + w.val, by omega⟩ : Fin 1024) p) = Cert.PatchNorm.col ap b h w p := by
  unfold RefTerm.colsT
  refine (transpose_ix3_021_apply _ _ b (⟨32 * h.val + w.val, by omega⟩ : Fin 1024) p).trans ?_
  refine (shapeCast_apply _ _ (ix3 b p (⟨32 * h.val + w.val, by omega⟩ : Fin 1024))
    (ix5 b (⟨p.val / 9, by omega⟩ : Fin 64) (⟨p.val % 9, by omega⟩ : Fin 9) h w) ?_).trans ?_
  · rw [Shape.rowMajor_val_five, Shape.rowMajor_val_three]
    show (((b.val * 64 + p.val / 9) * 9 + p.val % 9) * 32 + h.val) * 32 + w.val = (b.val * 576 + p.val) * 1024 + (32 * h.val + w.val)
    omega
  · exact stackT_apply ap b _ _ h w (Cert.PatchNorm.pr h p) (Cert.PatchNorm.pw w p) rfl (by show w.val + p.val % 3 = w.val + p.val % 9 % 3; omega)

/-! ## The normalization and the projection -/

/-- The word of 576 denotes the real 576. -/
theorem ofBits_576 : Ideal.ofBits .f32 0x44100000#32 = ((576 : ℝ) : EReal) := by
  simp [Ideal.ofBits, Ideal.ieee, -EReal.coe_mul]; norm_num

/-- The word of 575 denotes the real 575. -/
theorem ofBits_575 : Ideal.ofBits .f32 0x440FC000#32 = ((575 : ℝ) : EReal) := by
  simp [Ideal.ofBits, Ideal.ieee, -EReal.coe_mul]; norm_num

/-- 576 less the integer one, read as a float, is 575: the divisor of the unbiased estimate. -/
theorem corr_eq : Ideal.ofBits .f32 0x44100000#32 - (((1#32 : BitVec 32).toInt : ℝ) : EReal) = Cert.PatchNorm.c575 := by
  rw [ofBits_576, Cert.PatchNorm.c575, ofBits_575, show (1#32 : BitVec 32).toInt = 1 by decide, ← EReal.coe_sub]
  norm_num

/-- The divisor is positive, so the guard of the variance holds. -/
theorem corr_pos : Ideal.cmp .ogt Cert.PatchNorm.c575 (Ideal.ofBits .f32 0x00000000#32) = 1#1 := by
  rw [Cert.PatchNorm.c575, ofBits_575, Ideal.ofBits_zero_f32]
  have h : (0 : EReal) < ((575 : ℝ) : EReal) := by exact_mod_cast (by norm_num : (0 : ℝ) < 575)
  simp [Ideal.cmp, h]

/-- A `[256, 1024]` array with a unit axis appended, read at an index. -/
theorem bcastKeep_apply {α : Type} (hb : S256x1024.BroadcastsInDim S256x1024x1 (![0, 1] : Fin 2 → Fin S256x1024x1.rank))
    (x : S256x1024.Idx → α) (b : Fin 256) (l : Fin 1024) (u : Fin 1) :
    broadcastInDim S256x1024x1 ![0, 1] hb x (ix3 b l u) = x (ix2 b l) :=
  broadcastInDim_apply _ hb x (ix3 b l u) (ix2 b l) fun a => match a with
    | ⟨0, _⟩ => rfl
    | ⟨1, _⟩ => rfl

/-- A scalar spread over `[256, 1024, 1]`, read at an index. -/
theorem bcastScalar_apply {α : Type} (hb : S_.BroadcastsInDim S256x1024x1 (![] : Fin 0 → Fin S256x1024x1.rank))
    (x : S_.Idx → α) (b : Fin 256) (l : Fin 1024) (u : Fin 1) :
    broadcastInDim S256x1024x1 ![] hb x (ix3 b l u) = x ix0 :=
  broadcastInDim_scalar_apply hb x _

/-- A `[256, 1024, 1]` array spread along its last axis, read at an index. -/
theorem bcastLast_apply {α : Type} (hb : S256x1024x1.BroadcastsInDim S256x1024x576 (![0, 1, 2] : Fin 3 → Fin S256x1024x576.rank))
    (x : S256x1024x1.Idx → α) (b : Fin 256) (l : Fin 1024) (p : Fin 576) :
    broadcastInDim S256x1024x576 ![0, 1, 2] hb x (ix3 b l p) = x (ix3 b l (0 : Fin 1)) :=
  broadcastInDim_apply _ hb x (ix3 b l p) (ix3 b l (0 : Fin 1)) fun a => match a with
    | ⟨0, _⟩ => rfl
    | ⟨1, _⟩ => rfl
    | ⟨2, _⟩ => rfl

/-- The host's sum over the last axis from the zero word, at `(b, l)`: the sum of that column. -/
theorem colSum_apply (hr : S256x1024x576.ReducesTo [2] S256x1024) (hu : 0 < S_.numel) (x : FVec Ideal S256x1024x576 .f32)
    (b : Fin 256) (l : Fin 1024) :
    Host.reduceAdd (F := Ideal) x (constant (F := Ideal) S_ .f32 0x00000000#32) hr hu (ix2 b l) = ∑ q : Fin 576, x (ix3 b l q) := by
  refine (hostReduceAdd_apply x _ hr hu (ix2 b l)).trans ?_
  refine (Ideal.hostReduceAdd_single hr (by decide : S256x1024x576.Reduces [2] S256x1024) x _ (ix2 b l)).trans ?_
  rw [constant_apply, Ideal.ofBits_zero_f32, zero_add]
  show ∑ q : Fin 576, x _ = _
  refine Finset.sum_congr rfl fun q _ => congrArg x (funext fun a => Fin.ext ?_)
  match a with
  | ⟨0, _⟩ => rfl
  | ⟨1, _⟩ => rfl
  | ⟨2, _⟩ => rfl

/-- The reference's divisor of the unbiased estimate is 575. -/
theorem corrT_ix0 : RefTerm.corrT (F := Ideal) ix0 = Cert.PatchNorm.c575 := by
  unfold RefTerm.corrT
  rw [subf_apply, constant_apply, sitofp_apply, constantI_apply]
  exact corr_eq

/-- The guard of the variance, the test that the divisor is positive, holds. -/
theorem guard_ix0 :
    cmpf .ogt (RefTerm.corrT (F := Ideal)) (constant (F := Ideal) S_ .f32 0x00000000#32) ix0 = 1#1 := by
  rw [cmpf_apply, Ideal.cmpf_def, corrT_ix0, constant_apply]
  exact corr_pos

/-- The mean of column `(b, l)`. -/
theorem meanT_apply (cols : FVec Ideal S256x1024x576 .f32) (b : Fin 256) (l : Fin 1024) (u : Fin 1) :
    RefTerm.meanT (F := Ideal) cols (ix3 b l u) = Cert.PatchNorm.mean (fun q => cols (ix3 b l q)) := by
  unfold RefTerm.meanT Cert.PatchNorm.mean
  rw [hostDivf_apply, bcastKeep_apply, bcastScalar_apply, colSum_apply, constant_apply]

/-- The centred column `(b, l)` at `q`. -/
theorem centred_apply (cols : FVec Ideal S256x1024x576 .f32) (b : Fin 256) (l : Fin 1024) (q : Fin 576) :
    subf cols (broadcastInDim S256x1024x576 ![0, 1, 2] bcast_S256x1024x1_S256x1024x576_0_1_2 (RefTerm.meanT (F := Ideal) cols)) (ix3 b l q)
      = cols (ix3 b l q) - Cert.PatchNorm.mean (fun q => cols (ix3 b l q)) := by
  rw [subf_apply, bcastLast_apply, meanT_apply]

/-- The unbiased variance of column `(b, l)`. -/
theorem varT_apply (cols : FVec Ideal S256x1024x576 .f32) (b : Fin 256) (l : Fin 1024) (u : Fin 1) :
    RefTerm.varT (F := Ideal) cols (ix3 b l u)
      = Ideal.div (∑ q : Fin 576, (cols (ix3 b l q) - Cert.PatchNorm.mean (fun q => cols (ix3 b l q)))
          * (cols (ix3 b l q) - Cert.PatchNorm.mean (fun q => cols (ix3 b l q)))) Cert.PatchNorm.c575 := by
  unfold RefTerm.varT
  show select _ _ _ (ix3 b l u) = _
  rw [select_apply, bcastScalar_apply, guard_ix0, select_one, hostDivf_apply, bcastKeep_apply, bcastScalar_apply, colSum_apply,
    corrT_ix0]
  refine congrArg (fun s => Ideal.div s Cert.PatchNorm.c575) (Finset.sum_congr rfl fun q _ => ?_)
  rw [mulf_apply, centred_apply]

/-- The host's square root at an index. -/
theorem hostSqrt_apply {s : Shape} (x : FVec Ideal s .f32) (i : s.Idx) : Host.sqrt (F := Ideal) x i = Ideal.sqrt (x i) := rfl

/-- The normalized column `(b, l)` at `p`. -/
theorem normT_apply (cols : FVec Ideal S256x1024x576 .f32) (b : Fin 256) (l : Fin 1024) (p : Fin 576) :
    RefTerm.normT (F := Ideal) cols (ix3 b l p)
      = Ideal.div (cols (ix3 b l p) - Cert.PatchNorm.mean (fun q => cols (ix3 b l q))) (Cert.PatchNorm.dev (fun q => cols (ix3 b l q))) := by
  unfold RefTerm.normT
  rw [hostDivf_apply, centred_apply, bcastLast_apply, hostSqrt_apply, varT_apply]
  rfl

/-- The product of the normalized columns with the projection matrix at `(b, l, o)`: the sum over the column's entries. -/
theorem dot_apply (A : FVec Ideal S256x1024x576 .f32) (K : FVec Ideal S576x64 .f32) (b : Fin 256) (l : Fin 1024) (o : Fin 64) :
    Host.dotGeneral (F := Ideal) dot_S256x1024x576_S576x64_S256x1024x64_2_0_01_1_n_n none A K (ix3 b l o)
      = ∑ p : Fin 576, A (ix3 b l p) * K (ix2 p o) := by
  show FloatOps.dotGeneral _ none _ A K (ix3 b l o) = _
  rw [Ideal.dotGeneral_apply,
    ← Equiv.sum_comp (contrEquiv1 dot_S256x1024x576_S576x64_S256x1024x64_2_0_01_1_n_n 576 rfl rfl).symm]
  refine Finset.sum_congr rfl fun p _ => ?_
  have cp := contrEquiv1_symm_val dot_S256x1024x576_S576x64_S256x1024x64_2_0_01_1_n_n 576 rfl rfl p
  have hl : dot_S256x1024x576_S576x64_S256x1024x64_2_0_01_1_n_n.lhsIdx (ix3 b l o) ((contrEquiv1 _ 576 rfl rfl).symm p) = ix3 b l p := by
    funext ax; apply Fin.ext
    match ax with
    | ⟨0, _⟩ => simp [DotDims.lhsIdx, dot_S256x1024x576_S576x64_S256x1024x64_2_0_01_1_n_n]; rfl
    | ⟨1, _⟩ => simp [DotDims.lhsIdx, dot_S256x1024x576_S576x64_S256x1024x64_2_0_01_1_n_n]; rfl
    | ⟨2, _⟩ => simp [DotDims.lhsIdx, dot_S256x1024x576_S576x64_S256x1024x64_2_0_01_1_n_n]; exact cp
  have hr : dot_S256x1024x576_S576x64_S256x1024x64_2_0_01_1_n_n.rhsIdx (ix3 b l o) ((contrEquiv1 _ 576 rfl rfl).symm p) = ix2 p o := by
    funext ax; apply Fin.ext
    match ax with
    | ⟨0, _⟩ => simp [DotDims.rhsIdx, dot_S256x1024x576_S576x64_S256x1024x64_2_0_01_1_n_n]; exact cp
    | ⟨1, _⟩ => simp [DotDims.rhsIdx, dot_S256x1024x576_S576x64_S256x1024x64_2_0_01_1_n_n]; rfl
  rw [hl, hr]

/-- The normalization and projection of the columns, read at one result index. -/
theorem tailT_apply (cols : FVec Ideal S256x1024x576 .f32) (K : FVec Ideal S576x64 .f32) (b : Fin 256) (o : Fin 64) (h w : Fin 32) :
    RefTerm.tailT (F := Ideal) cols K (ix4 b o h w)
      = Cert.PatchNorm.entry (fun p => cols (ix3 b (⟨32 * h.val + w.val, by omega⟩ : Fin 1024) p)) (fun p => K (ix2 p o)) := by
  unfold RefTerm.tailT
  refine (shapeCast_apply _ _ (ix4 b o h w) (ix3 b o (⟨32 * h.val + w.val, by omega⟩ : Fin 1024)) ?_).trans ?_
  · rw [Shape.rowMajor_val_three, Shape.rowMajor_val_four]
    show (b.val * 64 + o.val) * 1024 + (32 * h.val + w.val) = ((b.val * 64 + o.val) * 32 + h.val) * 32 + w.val
    omega
  refine (transpose_ix3_021_apply _ _ b o (⟨32 * h.val + w.val, by omega⟩ : Fin 1024)).trans ?_
  rw [dot_apply]
  unfold Cert.PatchNorm.entry
  refine Finset.sum_congr rfl fun p _ => ?_
  rw [normT_apply, mul_comm]

/-- The reference's result is the specification's function of the padded array and the projection matrix. -/
theorem refT_eq (x : FVec Ideal S256x64x32x32 .f32) (K : FVec Ideal S576x64 .f32) :
    RefTerm.refT (F := Ideal) x K = Cert.PatchNorm.out (RefTerm.padT (F := Ideal) x) K := by
  funext j
  obtain ⟨b, o, h, w, rfl⟩ : ∃ (b : Fin 256) (o : Fin 64) (h w : Fin 32), j = ix4 b o h w := ⟨j 0, j 1, j 2, j 3, eq_ix4 j⟩
  rw [Cert.PatchNorm.out_ix4]
  unfold RefTerm.refT
  rw [tailT_apply]
  exact congrArg (fun f => Cert.PatchNorm.entry f _) (funext fun p => colsT_apply _ b h w p)

end Cert.ReferenceIdeal.RefValue

end
-- ==== Proof.lean ====
/-
  A normalized 3×3 patch projection: an image array [256, 64, 32, 32] is reflect-padded by one on its two image axes; for
  image `b` and position `(h, w)` the 576 numbers `a_pad[b, c, h + kh, w + kw]` (in the order `9 c + 3 kh + kw`) form a
  column; the column is centred by its mean `(Σ x) / 576`, divided by its unbiased deviation `√(Σ (x − μ)² / 575)`, and
  multiplied into a matrix [576, 64]; the result, channel axis second, has the image's shape [256, 64, 32, 32].

  The kernel pads on the host, then works on blocks of four images: per image it cuts the nine shifted windows, stacks
  and flattens them into a [576, 1024] array of columns, normalizes each column, rounds to bf16 and multiplies the
  (rounded) matrix in from the left over the column axis; the [64, 1024] product is stored as that image's rows of the
  output, and a reshape on the host unfolds the 1024 positions. The reference builds all columns at once as a
  [256, 1024, 576] array, takes mean and deviation along the last axis (the divisor 575 computed as 576 − 1 and guarded
  by a test that it is positive), multiplies the matrix in from the right, and moves the channel axis forward.

  At the exact values rounding is the identity, so both are the same function of the padded array and the matrix
  (`Cert.PatchNorm.out`): the only laws used are that a sum may be taken in any order and that a product commutes; in
  particular no entry needs to be finite. The padding is the same sixteen operations on both sides and is never opened.
-/
import proofs.«119388_j32538672234775_2_alg».proof.Defs
import proofs.«119388_j32538672234775_2_alg».proof.Proof.Gen.Kernel
import proofs.«119388_j32538672234775_2_alg».proof.Proof.Gen.Kernel.Skeleton
import proofs.«119388_j32538672234775_2_alg».proof.Proof.Gen.Kernel.Launch
import proofs.«119388_j32538672234775_2_alg».proof.Proof.Gen.Kernel.Points
import proofs.«119388_j32538672234775_2_alg».proof.Proof.Gen.Kernel.Frame
import proofs.«119388_j32538672234775_2_alg».proof.Proof.Gen.KernelIdeal
import proofs.«119388_j32538672234775_2_alg».proof.Proof.Gen.KernelIdeal.Skeleton
import proofs.«119388_j32538672234775_2_alg».proof.Proof.Gen.KernelIdeal.Launch
import proofs.«119388_j32538672234775_2_alg».proof.Proof.Gen.KernelIdeal.Points
import proofs.«119388_j32538672234775_2_alg».proof.Proof.Gen.KernelIdeal.Frame
import proofs.«119388_j32538672234775_2_alg».proof.Proof.Gen.ReferenceIdeal
import proofs.«119388_j32538672234775_2_alg».proof.Proof.Gen.Pre_finite_inputs
import proofs.«119388_j32538672234775_2_alg».proof.Proof.KernelRun
import proofs.«119388_j32538672234775_2_alg».proof.Proof.RefRun
import proofs.«119388_j32538672234775_2_alg».proof.Proof.RefValue
import Idealize.ShloMosaic.Adequacy
import Idealize.ShloMosaic.Init

noncomputable section

namespace Cert.Proof

open Idealize.ShloMosaic Idealize.SL.Sem

/-- The kernel's program runs and keeps its arguments, as printed and idealized: the generated frames. -/
theorem frame_k : Cert.frame_Kernel := fun m ρ _ => Cert.Kernel.Gen.frame m ρ
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.RefRun.run m ρ)

/-- The idealization rewrote no operation. -/
theorem preserves : Cert.preserves_Kernel_KernelIdeal := trivial

/-- Both programs end with the specification's function of the padded image array and the matrix. -/
theorem algebraic : Cert.algebraic_KernelIdeal_ReferenceIdeal := by
  intro m ρ m' ρ' _ hagree
  refine ⟨fun c => Cert.PatchNorm.out
      (Cert.ReferenceIdeal.RefTerm.padT (F := Ideal) (m ((c.tc : Thread Cert.KernelIdeal.nD Cert.KernelIdeal.τ).loc Cert.KernelIdeal.main_arg0)))
      (m ((c.tc : Thread Cert.KernelIdeal.nD Cert.KernelIdeal.τ).loc Cert.KernelIdeal.main_arg1)),
    Cert.KernelIdeal.Whole.run m ρ, ?_⟩
  refine (θ_run Cert.ReferenceIdeal.defs _ _).mono (fun _ h c => ⟨(h c).1.trans ?_, (h c).2⟩)
    (Cert.ReferenceIdeal.RefRun.run m' ρ')
  rw [(hagree c).1, (hagree c).2]
  exact Cert.ReferenceIdeal.RefValue.refT_eq _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
